-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S800000x2 : Shape := ⟨2, ![800000, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S800000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : IVec S800000x2 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S800000x2 : Shape := ⟨2, ![800000, 2]⟩
abbrev S1x128 : Shape := ⟨2, ![1, 128]⟩
abbrev S5000x128 : Shape := ⟨2, ![5000, 128]⟩
abbrev S800000x1 : Shape := ⟨2, ![800000, 1]⟩
abbrev S800000 : Shape := ⟨1, ![800000]⟩
abbrev S_ : Shape := ⟨0, ![]⟩
abbrev S1 : Shape := ⟨1, ![1]⟩
abbrev S1x1 : Shape := ⟨2, ![1, 1]⟩
abbrev S128x256 : Shape := ⟨2, ![128, 256]⟩
abbrev S256 : Shape := ⟨1, ![256]⟩
abbrev S1x256 : Shape := ⟨2, ![1, 256]⟩
abbrev S4000x128 : Shape := ⟨2, ![4000, 128]⟩
abbrev S4000x256 : Shape := ⟨2, ![4000, 256]⟩
abbrev S50000 : Shape := ⟨1, ![50000]⟩
abbrev S50000x1 : Shape := ⟨2, ![50000, 1]⟩

abbrev nBuf : Space → Nat
  | .hbm => 75
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S800000x2, .i32⟩
  | .hbm, ⟨13, _⟩ => ⟨S1x128, .f32⟩
  | .hbm, ⟨14, _⟩ => ⟨S50000x128, .f32⟩
  | .hbm, ⟨15, _⟩ => ⟨S800000x1, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x128, .f32⟩
  | .hbm, ⟨36, _⟩ => ⟨S800000x128, .i1⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S128x256, .f32⟩
  | .hbm, ⟨41, _⟩ => ⟨S256, .f32⟩
  | .hbm, ⟨42, _⟩ => ⟨S1x256, .f32⟩
  | .hbm, ⟨43, _⟩ => ⟨S800000x128, .f32⟩
  | .hbm, ⟨44, _⟩ => ⟨S800000x1, .i32⟩
  | .hbm, ⟨45, _⟩ => ⟨S800000, .i32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S_, .f32⟩
  | .hbm, ⟨51, _⟩ => ⟨S800000, .f32⟩
  | .hbm, ⟨52, _⟩ => ⟨S_, .f32⟩
  | .hbm, ⟨53, _⟩ => ⟨S50000, .f32⟩
  | .hbm, ⟨54, _⟩ => ⟨S800000x1, .i32⟩
  | .hbm, ⟨55, _⟩ => ⟨S50000, .f32⟩
  | .hbm, ⟨56, _⟩ => ⟨S50000x1, .f32⟩
  | .hbm, ⟨57, _⟩ => ⟨S_, .f32⟩
  | .hbm, ⟨58, _⟩ => ⟨S50000x1, .f32⟩
  | .hbm, ⟨59, _⟩ => ⟨S50000x1, .i1⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S_, .f32⟩
  | .hbm, ⟨67, _⟩ => ⟨S50000x128, .i1⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x256, .f32⟩
  | .local _ .vmem, ⟨11, _⟩ => ⟨S1x256, .f32⟩
  | .local _ .vmem, ⟨12, _⟩ => ⟨S4000x128, .f32⟩
  | .local _ .vmem, ⟨13, _⟩ => ⟨S4000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst_0 : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_2 : Ref sig .tc := ⟨.hbm, 57, rfl⟩
abbrev main_v19 : Ref sig .tc := ⟨.hbm, 58, rfl⟩
abbrev main_v20 : Ref sig .tc := ⟨.hbm, 59, rfl⟩
abbrev main_cst_3 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_4 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S800000x2_S800000x1_0_1 : S800000x2.Slices ![0, 1] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  concatenates_S128x128_S128x128_S128x256_d1 : Shape.Concatenates [S128x128, S128x128] S128x256 1
  concatenates_S128_S128_S256_d0 : Shape.Concatenates [S128, S128] S256 0
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  slices_S4000x256_o0_0_S4000x128 : S4000x256.Slices ![0, 0] S4000x128
  slices_S4000x256_o0_128_S4000x128 : S4000x256.Slices ![0, 128] S4000x128
  shapeCasts_S4000x128_S4000x128 : S4000x128.ShapeCasts S4000x128
  slices_S800000x2_S800000x1_0_0 : S800000x2.Slices ![0, 0] S800000x1
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S4000x128_S128x256_S4000x256_1_0_0_1_n_n_wf : DotDims.WF S4000x128 S128x256 S4000x256 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S800000x128.size a
  hwx1_4 : ∀ i : grid1.Coords, EltTy.bits .f32 = 32 ∨ (Rect.block (s := S800000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S800000x2 : Shape := ⟨2, ![800000, 2]⟩
abbrev S1x128 : Shape := ⟨2, ![1, 128]⟩
abbrev S_ : Shape := ⟨0, ![]⟩
abbrev S800000x1 : Shape := ⟨2, ![800000, 1]⟩
abbrev S800000 : Shape := ⟨1, ![800000]⟩
abbrev S1 : Shape := ⟨1, ![1]⟩
abbrev S1x1 : Shape := ⟨2, ![1, 1]⟩
abbrev S50000 : Shape := ⟨1, ![50000]⟩
abbrev S50000x1 : Shape := ⟨2, ![50000, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S800000x2, .i32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S800000x128, .f32⟩
  | .hbm, ⟨18, _⟩ => ⟨S1x128, .f32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S800000x128, .f32⟩
  | .hbm, ⟨28, _⟩ => ⟨S800000x128, .f32⟩
  | .hbm, ⟨29, _⟩ => ⟨S800000x128, .f32⟩
  | .hbm, ⟨30, _⟩ => ⟨S1x128, .f32⟩
  | .hbm, ⟨31, _⟩ => ⟨S800000x128, .f32⟩
  | .hbm, ⟨32, _⟩ => ⟨S800000x128, .f32⟩
  | .hbm, ⟨33, _⟩ => ⟨S800000x1, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S1, .i32⟩
  | .hbm, ⟨44, _⟩ => ⟨S_, .i32⟩
  | .hbm, ⟨45, _⟩ => ⟨S800000x1, .i32⟩
  | .hbm, ⟨46, _⟩ => ⟨S800000x1, .i1⟩
  | .hbm, ⟨47, _⟩ => ⟨S1x1, .i32⟩
  | .hbm, ⟨48, _⟩ => ⟨S800000x1, .i32⟩
  | .hbm, ⟨49, _⟩ => ⟨S800000x1, .i1⟩
  | .hbm, ⟨50, _⟩ => ⟨S800000x1, .i1⟩
  | .hbm, ⟨51, _⟩ => ⟨S_, .i1⟩
  | .hbm, ⟨52, _⟩ => ⟨S800000, .i1⟩
  | .hbm, ⟨53, _⟩ => ⟨S800000x128, .f32⟩
  | .hbm, ⟨54, _⟩ => ⟨S800000x128, .i1⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S800000x128, .f32⟩
  | .hbm, ⟨60, _⟩ => ⟨S800000x1, .i32⟩
  | .hbm, ⟨61, _⟩ => ⟨S800000, .i32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S50000x1, .f32⟩
  | .hbm, ⟨73, _⟩ => ⟨S_, .f32⟩
  | .hbm, ⟨74, _⟩ => ⟨S50000x1, .f32⟩
  | .hbm, ⟨75, _⟩ => ⟨S50000x1, .i1⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S_, .f32⟩
  | .hbm, ⟨83, _⟩ => ⟨S50000x128, .i1⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_2 : Ref sig .tc := ⟨.hbm, 66, rfl⟩
abbrev main_v28 : Ref sig .tc := ⟨.hbm, 67, rfl⟩
abbrev main_cst_3 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_4 : Ref sig .tc := ⟨.hbm, 73, rfl⟩
abbrev main_v33 : Ref sig .tc := ⟨.hbm, 74, rfl⟩
abbrev main_v34 : Ref sig .tc := ⟨.hbm, 75, rfl⟩
abbrev main_cst_5 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_6 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_7 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_call2_cst : Ref sig .tc := ⟨.hbm, 103, rfl⟩
abbrev main_call2_v0 : Ref sig .tc := ⟨.hbm, 104, rfl⟩
abbrev main_v56 : Ref sig .tc := ⟨.hbm, 105, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S800000x2_S800000x1_0_1 : S800000x2.Slices ![0, 1] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  slices_S800000x2_S800000x1_0_0 : S800000x2.Slices ![0, 0] S800000x1
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KRun.lean ====
/-
  The idealized kernel program's run with its result named.

  The program is three pipelined regions among stretches of host operations. Every weakly fair execution from a memory
  with zero counters terminates without a fault; in the final state every buffer that outlives the regions holds the
  contents of the last boundary of the fold through the program: host stretches apply their operations, a region leaves
  each of its arrays at what its write-backs leave. Read at the result buffer this names the result; read at an argument
  it is the launch contents, since nothing writes an argument.
-/
import proofs.«166731_j47974784696372_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates, the result buffer ends at the last boundary's contents, the arguments end as launched. -/
theorem run_value : θ_run defs (onTc (τ := τ) (main (F := F))) ⟨m, fun _ => 0, ρ⟩ (fun r => ∀ c : Dev nD,
      r.2.mem ((c.tc : Thread nD τ).loc main_v30) = W10 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v30 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.KRun

end
-- ==== Proof.KHost.lean ====
/-
  The host operations of the idealized kernel program between its three regions, as functions of the arrays they read.

  * before the first region the 128 bias entries are laid out as a 1 × 128 row;
  * between the first and the second region each edge's source index (column 1 of the index pairs) is normalised
    (a negative index is shifted by the number of nodes), the hidden rows are gathered at those indices, and a row whose
    index is still out of range is replaced by the not-a-number pattern; the two 128 × 128 weight matrices are put side
    by side, and so are the two bias vectors, laid out as a 1 × 256 row;
  * between the second and the third region the messages are summed into their destination rows (column 0 of the index
    pairs), the destinations are counted the same way, and each row sum is divided by its count (at least one) where
    the count is positive and replaced by zero elsewhere; the four normalisation vectors are laid out as rows.

  A stretch reads only buffers written before it, so what a buffer holds after a stretch is the composed operations of
  what the stretch found.
-/
import proofs.«166731_j47974784696372_1_alg».proof.Proof.Gen.KernelIdeal.Launch
import Idealize.ShloMosaic.Lib.StableHlo.Run

set_option maxRecDepth 16384

noncomputable section

namespace Cert.KernelIdeal.KHost

open Idealize.ShloMosaic Idealize.ShloMosaic.StableHlo Idealize.ShloMosaic.TcCoe
open Cert.KernelIdeal Cert.KernelIdeal.Gen

variable {F : FTy → Type} [FloatOps F]

/-- 128 entries laid out as a 1 × 128 row. -/
def row128 (b : (⟨S128, .f32⟩ : BufTy).Contents (Elt F)) : (⟨S1x128, .f32⟩ : BufTy).Contents (Elt F) :=
  shapeCast S1x128 b shapeCasts_S128_S1x128

/-- Two 128 × 128 matrices side by side. -/
def sideBySide (a b : (⟨S128x128, .f32⟩ : BufTy).Contents (Elt F)) : (⟨S128x256, .f32⟩ : BufTy).Contents (Elt F) :=
  concatenate S128x256 1 [⟨S128x128, a⟩, ⟨S128x128, b⟩] concatenates_S128x128_S128x128_S128x256_d1

/-- Two vectors of 128 entries end to end, laid out as a 1 × 256 row. -/
def row256 (a b : (⟨S128, .f32⟩ : BufTy).Contents (Elt F)) : (⟨S1x256, .f32⟩ : BufTy).Contents (Elt F) :=
  shapeCast S1x256 (concatenate S256 0 [⟨S128, a⟩, ⟨S128, b⟩] concatenates_S128_S128_S256_d0) shapeCasts_S256_S1x256

/-- The hidden rows gathered at each edge's source index (column 1), out-of-range rows replaced by the not-a-number pattern. -/
def takeSrc (h : (⟨S50000x128, .f32⟩ : BufTy).Contents (Elt F)) (idx : (⟨S800000x2, .i32⟩ : BufTy).Contents (Elt F)) :
    (⟨S800000x128, .f32⟩ : BufTy).Contents (Elt F) :=
  let src : (⟨S800000, .i32⟩ : BufTy).Contents (Elt F) :=
    shapeCast S800000 (extractStridedSlice S800000x1 ![0, 1] idx slices_S800000x2_S800000x1_0_1) shapeCasts_S800000x1_S800000
  let wrapped : (⟨S800000, .i32⟩ : BufTy).Contents (Elt F) :=
    select (cmpi .slt src (broadcastInDim S800000 ![] bcast_S_S800000 (constantI S_ 32 0#32)))
      (addi src (broadcastInDim S800000 ![] bcast_S_S800000 (constantI S_ 32 50000#32))) src
  let col : (⟨S800000x1, .i32⟩ : BufTy).Contents (Elt F) := broadcastInDim S800000x1 ![0] bcast_S800000_S800000x1_0 wrapped
  let ok : (⟨S800000, .i1⟩ : BufTy).Contents (Elt F) :=
    Host.reduce IntOp.andi
      (andi (cmpi .sge col (broadcastInDim S800000x1 ![] bcast_S_S800000x1 (constantI S_ 32 0#32)))
        (cmpi .sle col (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_
  select (broadcastInDim S800000x128 ![0] bcast_S800000_S800000x128_0 ok)
    (Host.gather gather_S50000x128_S800000x1_S800000x128_1_0_n_n_0_1_1128 h col)
    (broadcastInDim S800000x128 ![] bcast_S_S800000x128 (constant S_ .f32 0x7FC00000#32))

/-- The mean of the messages arriving at each node (destination index in column 0); zero where none arrives. -/
def meanAtDst (msg : (⟨S800000x128, .f32⟩ : BufTy).Contents (Elt F)) (idx : (⟨S800000x2, .i32⟩ : BufTy).Contents (Elt F)) :
    (⟨S50000x128, .f32⟩ : BufTy).Contents (Elt F) :=
  let dst : (⟨S800000, .i32⟩ : BufTy).Contents (Elt F) :=
    shapeCast S800000 (extractStridedSlice S800000x1 ![0, 0] idx slices_S800000x2_S800000x1_0_0) shapeCasts_S800000x1_S800000
  let col : (⟨S800000x1, .i32⟩ : BufTy).Contents (Elt F) := broadcastInDim S800000x1 ![0] bcast_S800000_S800000x1_0 dst
  let sums : (⟨S50000x128, .f32⟩ : BufTy).Contents (Elt F) :=
    Host.scatterAdd scatter_S50000x128_S800000x1_S800000x128_1_0_0_1
      (broadcastInDim S50000x128 ![] bcast_S_S50000x128 (constant S_ .f32 0x00000000#32)) col msg
  let counts : (⟨S50000x1, .f32⟩ : BufTy).Contents (Elt F) :=
    broadcastInDim S50000x1 ![0] bcast_S50000_S50000x1_0
      (Host.scatterAdd scatter_S50000_S800000x1_S800000_n_0_0_1
        (broadcastInDim S50000 ![] bcast_S_S50000 (constant S_ .f32 0x00000000#32)) col
        (broadcastInDim S800000 ![] bcast_S_S800000 (constant S_ .f32 0x3F800000#32)))
  select
    (broadcastInDim S50000x128 ![0, 1] bcast_S50000x1_S50000x128_0_1
      (cmpf .ogt counts (broadcastInDim S50000x1 ![] bcast_S_S50000x1 (constant S_ .f32 0x00000000#32))))
    (Host.divf sums (broadcastInDim S50000x128 ![0, 1] bcast_S50000x1_S50000x128_0_1
      (maximumf counts (broadcastInDim S50000x1 ![] bcast_S_S50000x1 (constant S_ .f32 0x3F800000#32)))))
    (broadcastInDim S50000x128 ![] bcast_S_S50000x128 (id (constant S_ .f32 0x00000000#32)))

/-! ## What each stretch leaves, read back -/

attribute [local irreducible] Host.gather Host.reduce Host.scatterAdd concatenate

variable (W : Valuation τ sig (Elt F))

/-- Before the first region: the bias row. -/
theorem bias_row : after hostOps0 W (Proc.devRef .tc main_v0) = row128 (W (Proc.devRef .tc main_arg3)) := by
  after_results; rfl

theorem pre0_arg0 : after hostOps0 W (Proc.devRef .tc main_arg0) = W (Proc.devRef .tc main_arg0) := by after_results
theorem pre0_arg2 : after hostOps0 W (Proc.devRef .tc main_arg2) = W (Proc.devRef .tc main_arg2) := by after_results
theorem pre0_arg1 : after hostOps0 W (Proc.devRef .tc main_arg1) = W (Proc.devRef .tc main_arg1) := by after_results
theorem pre0_arg4 : after hostOps0 W (Proc.devRef .tc main_arg4) = W (Proc.devRef .tc main_arg4) := by after_results
theorem pre0_arg5 : after hostOps0 W (Proc.devRef .tc main_arg5) = W (Proc.devRef .tc main_arg5) := by after_results
theorem pre0_arg6 : after hostOps0 W (Proc.devRef .tc main_arg6) = W (Proc.devRef .tc main_arg6) := by after_results
theorem pre0_arg7 : after hostOps0 W (Proc.devRef .tc main_arg7) = W (Proc.devRef .tc main_arg7) := by after_results
theorem pre0_arg8 : after hostOps0 W (Proc.devRef .tc main_arg8) = W (Proc.devRef .tc main_arg8) := by after_results
theorem pre0_arg9 : after hostOps0 W (Proc.devRef .tc main_arg9) = W (Proc.devRef .tc main_arg9) := by after_results
theorem pre0_arg10 : after hostOps0 W (Proc.devRef .tc main_arg10) = W (Proc.devRef .tc main_arg10) := by after_results
theorem pre0_arg11 : after hostOps0 W (Proc.devRef .tc main_arg11) = W (Proc.devRef .tc main_arg11) := by after_results
theorem pre0_arg12 : after hostOps0 W (Proc.devRef .tc main_arg12) = W (Proc.devRef .tc main_arg12) := by after_results

end Cert.KernelIdeal.KHost

end
-- ==== Proof.KHostMid.lean ====
/-
  What the host operations between the first and the second region leave, read back from the buffers the stretch finds:
  the gathered neighbour rows, the two weight matrices side by side, the two bias vectors as one row; every buffer the
  stretch does not write is as it was.

  The gather helper is read in three consecutive pieces — the index normalisation, the range test, the gather with its
  replacement of out-of-range rows — each a function of the buffers the piece finds; composing the three gives the
  gathered rows as the one function of the hidden rows and the index pairs.
-/
import proofs.«166731_j47974784696372_1_alg».proof.Proof.KHost

set_option maxRecDepth 16384
set_option maxHeartbeats 1000000

noncomputable section

namespace Cert.KernelIdeal.KHost

open Idealize.ShloMosaic Idealize.ShloMosaic.StableHlo Idealize.ShloMosaic.TcCoe
open Cert.KernelIdeal Cert.KernelIdeal.Gen

variable {F : FTy → Type} [FloatOps F]

attribute [local irreducible] Host.gather Host.reduce Host.scatterAdd concatenate select cmpi cmpf addi andi broadcastInDim
  shapeCast extractStridedSlice constantI constant

/-- Running two lists of operations one after the other. -/
theorem after_append (l₁ l₂ : List (HloOp τ sig (Elt F))) (V : Valuation τ sig (Elt F)) :
    after (l₁ ++ l₂) V = after l₂ (after l₁ V) := by
  induction l₁ generalizing V with
  | nil => rfl
  | cons op ops ih => exact ih _

/-- Column 1 of the index pairs: each edge's source index. -/
def srcOf (idx : (⟨S800000x2, .i32⟩ : BufTy).Contents (Elt F)) : (⟨S800000, .i32⟩ : BufTy).Contents (Elt F) :=
  shapeCast S800000 (extractStridedSlice S800000x1 ![0, 1] idx slices_S800000x2_S800000x1_0_1) shapeCasts_S800000x1_S800000

/-- A negative index shifted by the number of nodes; the indices as one column. -/
def wrapOf (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Whether each index lies between zero and the last node. -/
def okOf (col : (⟨S800000x1, .i32⟩ : BufTy).Contents (Elt F)) : (⟨S800000, .i1⟩ : BufTy).Contents (Elt F) :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows gathered at a column of indices, replaced by the not-a-number pattern where the index is out of range. -/
def rowsAt (h : (⟨S50000x128, .f32⟩ : BufTy).Contents (Elt F)) (col : (⟨S800000x1, .i32⟩ : BufTy).Contents (Elt F))
    (ok : (⟨S800000, .i1⟩ : BufTy).Contents (Elt F)) : (⟨S800000x128, .f32⟩ : BufTy).Contents (Elt F) :=
  select (broadcastInDim S800000x128 ![0] bcast_S800000_S800000x128_0 ok)
    (Host.gather gather_S50000x128_S800000x1_S800000x128_1_0_n_n_0_1_1128 h col)
    (broadcastInDim S800000x128 ![] bcast_S_S800000x128 (constant S_ .f32 0x7FC00000#32))

/-- The gathered rows are the three pieces composed. -/
theorem takeSrc_pieces (h : (⟨S50000x128, .f32⟩ : BufTy).Contents (Elt F)) (idx : (⟨S800000x2, .i32⟩ : BufTy).Contents (Elt F)) :
    takeSrc h idx = rowsAt h (wrapOf (srcOf idx)) (okOf (wrapOf (srcOf idx))) := rfl

/-- The index normalisation of the gather helper. -/
abbrev takeHead : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v3 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v3 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v3 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]

/-- The range test of the gather helper. -/
abbrev takeTest : List (HloOp τ sig (Elt F)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]

/-- The gather and the replacement of out-of-range rows. -/
abbrev takeTail : List (HloOp τ sig (Elt F)) :=
  [ StableHlo.TRef.binary (.of main_v1 : StableHlo.TRef sig ⟨S50000x128, .f32⟩) (.of main_call0_v5 : StableHlo.TRef sig ⟨S800000x1, .i32⟩) (.of main_call0_v13 : StableHlo.TRef sig ⟨S800000x128, .f32⟩) (fun x i => Host.gather gather_S50000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v4 : StableHlo.TRef sig ⟨S800000x128, .f32⟩) select ]

theorem take_split : (hostOps1_1 : List (HloOp τ sig (Elt F))) = takeHead ++ (takeTest ++ takeTail) := rfl

variable (W : Valuation τ sig (Elt F))

/-! ### The pieces, each from the buffers it finds -/

theorem pre_src : after hostOps1 W (Proc.devRef .tc main_v3) = srcOf (W (Proc.devRef .tc main_arg12)) := by
  after_results; rfl
theorem pre_src_v1 : after hostOps1 W (Proc.devRef .tc main_v1) = W (Proc.devRef .tc main_v1) := by after_results

theorem head_col : after takeHead W (Proc.devRef .tc main_call0_v5) = wrapOf (W (Proc.devRef .tc main_v3)) := by
  after_results; rfl
theorem head_v1 : after takeHead W (Proc.devRef .tc main_v1) = W (Proc.devRef .tc main_v1) := by after_results

theorem test_ok : after takeTest W (Proc.devRef .tc main_call0_v12) = okOf (W (Proc.devRef .tc main_call0_v5)) := by
  after_results; rfl
theorem test_col : after takeTest W (Proc.devRef .tc main_call0_v5) = W (Proc.devRef .tc main_call0_v5) := by after_results
theorem test_v1 : after takeTest W (Proc.devRef .tc main_v1) = W (Proc.devRef .tc main_v1) := by after_results

theorem tail_rows : after takeTail W (Proc.devRef .tc main_v4)
    = rowsAt (W (Proc.devRef .tc main_v1)) (W (Proc.devRef .tc main_call0_v5)) (W (Proc.devRef .tc main_call0_v12)) := by
  after_results; rfl

theorem post_rows : after hostOps1_2 W (Proc.devRef .tc main_v4) = W (Proc.devRef .tc main_v4) := by after_results

/-- The gathered neighbour rows. -/
theorem gathered : after hostOps1_2 (after hostOps1_1 (after hostOps1 W)) (Proc.devRef .tc main_v4)
    = takeSrc (W (Proc.devRef .tc main_v1)) (W (Proc.devRef .tc main_arg12)) := by
  rw [take_split, after_append, after_append, post_rows, tail_rows, test_ok, test_col, test_v1, head_col, head_v1,
    pre_src, pre_src_v1, takeSrc_pieces]

/-! ### Between the first and the second region -/

/-- The two weight matrices side by side. -/
theorem weights256 : after hostOps1_2 (after hostOps1_1 (after hostOps1 W)) (Proc.devRef .tc main_v5)
    = sideBySide (W (Proc.devRef .tc main_arg4)) (W (Proc.devRef .tc main_arg6)) := by
  after_results; rfl

/-- The two bias vectors as one row. -/
theorem bias256 : after hostOps1_2 (after hostOps1_1 (after hostOps1 W)) (Proc.devRef .tc main_v7)
    = row256 (W (Proc.devRef .tc main_arg5)) (W (Proc.devRef .tc main_arg7)) := by
  after_results; rfl

theorem pre1_arg1 : after hostOps1_2 (after hostOps1_1 (after hostOps1 W)) (Proc.devRef .tc main_arg1) = W (Proc.devRef .tc main_arg1) := by
  after_results
theorem pre1_arg12 : after hostOps1_2 (after hostOps1_1 (after hostOps1 W)) (Proc.devRef .tc main_arg12) = W (Proc.devRef .tc main_arg12) := by
  after_results
theorem pre1_v1 : after hostOps1_2 (after hostOps1_1 (after hostOps1 W)) (Proc.devRef .tc main_v1) = W (Proc.devRef .tc main_v1) := by
  after_results
theorem pre1_arg8 : after hostOps1_2 (after hostOps1_1 (after hostOps1 W)) (Proc.devRef .tc main_arg8) = W (Proc.devRef .tc main_arg8) := by
  after_results
theorem pre1_arg9 : after hostOps1_2 (after hostOps1_1 (after hostOps1 W)) (Proc.devRef .tc main_arg9) = W (Proc.devRef .tc main_arg9) := by
  after_results
theorem pre1_arg10 : after hostOps1_2 (after hostOps1_1 (after hostOps1 W)) (Proc.devRef .tc main_arg10) = W (Proc.devRef .tc main_arg10) := by
  after_results
theorem pre1_arg11 : after hostOps1_2 (after hostOps1_1 (after hostOps1 W)) (Proc.devRef .tc main_arg11) = W (Proc.devRef .tc main_arg11) := by
  after_results

end Cert.KernelIdeal.KHost

end
-- ==== Proof.KHostLate.lean ====
/-
  What the host operations between the second and the third region leave, read back from the buffers the stretch
  finds: the mean of the messages at each destination node and the four normalisation vectors as rows; every buffer
  the stretch does not write is as it was.
-/
import proofs.«166731_j47974784696372_1_alg».proof.Proof.KHost

set_option maxRecDepth 16384
set_option maxHeartbeats 1000000

noncomputable section

namespace Cert.KernelIdeal.KHost

open Idealize.ShloMosaic Idealize.ShloMosaic.StableHlo Idealize.ShloMosaic.TcCoe
open Cert.KernelIdeal Cert.KernelIdeal.Gen

variable {F : FTy → Type} [FloatOps F]

attribute [local irreducible] Host.gather Host.reduce Host.scatterAdd concatenate

variable (W : Valuation τ sig (Elt F))

/-! ### Between the second and the third region -/

/-- The mean of the arriving messages. -/
theorem aggregated : after hostOps2_2 (after hostOps2_1 (after hostOps2 W)) (Proc.devRef .tc main_v25)
    = meanAtDst (W (Proc.devRef .tc main_v8)) (W (Proc.devRef .tc main_arg12)) := by
  after_results; rfl

theorem gamma_row : after hostOps2_2 (after hostOps2_1 (after hostOps2 W)) (Proc.devRef .tc main_v26) = row128 (W (Proc.devRef .tc main_arg8)) := by
  after_results; rfl
theorem beta_row : after hostOps2_2 (after hostOps2_1 (after hostOps2 W)) (Proc.devRef .tc main_v27) = row128 (W (Proc.devRef .tc main_arg9)) := by
  after_results; rfl
theorem mean_row : after hostOps2_2 (after hostOps2_1 (after hostOps2 W)) (Proc.devRef .tc main_v28) = row128 (W (Proc.devRef .tc main_arg10)) := by
  after_results; rfl
theorem var_row : after hostOps2_2 (after hostOps2_1 (after hostOps2 W)) (Proc.devRef .tc main_v29) = row128 (W (Proc.devRef .tc main_arg11)) := by
  after_results; rfl
theorem pre2_v1 : after hostOps2_2 (after hostOps2_1 (after hostOps2 W)) (Proc.devRef .tc main_v1) = W (Proc.devRef .tc main_v1) := by
  after_results

end Cert.KernelIdeal.KHost

end
-- ==== Proof.Spec.lean ====
/-
  The mathematics of the three dense stages of a gated graph convolution, index by index on the extended reals.

  * `nodeProj`   : a row of the node features against a column of the weight matrix, plus the bias entry of that column;
  * `gatedMsg`   : for an edge, the logistic of the first 128 columns of the edge's affine image times the last 128 columns,
                   times the gathered neighbour row, entry by entry (the two weight matrices side by side form a
                   128 × 256 matrix, and the two bias rows side by side a 1 × 256 row);
  * `normRelu`   : the sum of a node's hidden row and its aggregated messages, centred by the moving mean, scaled by the
                   reciprocal square root of the moving variance plus a fixed constant, scaled and shifted by the learnt
                   row parameters, and clamped below at zero.

  Each is stated for any number of rows, so the same function describes a block of rows and the whole array.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- A matrix of extended reals with `r` rows and `c` columns. -/
abbrev Arr2 (r c : Nat) : Type := (⟨2, ![r, c]⟩ : Shape).Idx → EReal

/-- A vector of extended reals of length `n`. -/
abbrev Arr1 (n : Nat) : Type := (⟨1, ![n]⟩ : Shape).Idx → EReal

/-- A vector laid out along a one-row matrix. -/
def asRow {n : Nat} (b : Arr1 n) : Arr2 1 n := fun i => b (ix1 (i 1))

/-- Column `q` of the left half of a 256-column matrix. -/
abbrev lo (q : Fin 128) : Fin 256 := ⟨q.val, by omega⟩

/-- Column `q` of the right half of a 256-column matrix. -/
abbrev hi (q : Fin 128) : Fin 256 := ⟨q.val + 128, by omega⟩

/-- Row `p` of `x` against column `q` of `W` (128 terms), plus entry `q` of the bias row. -/
def affine {R C : Nat} (x : Arr2 R 128) (W : Arr2 128 C) (b : Arr2 1 C) (p : Fin R) (q : Fin C) : EReal :=
  (∑ k : Fin 128, x (ix2 p k) * W (ix2 k q)) + b (ix2 (0 : Fin 1) q)

/-- The node projection: every row's affine image. -/
def nodeProj {R : Nat} (x : Arr2 R 128) (W : Arr2 128 128) (b : Arr2 1 128) : Arr2 R 128 :=
  fun i => affine x W b (i 0) (i 1)

/-- The gated message of an edge: logistic of the gate columns, times the filter columns, times the neighbour's row. -/
def gatedMsg {R : Nat} (e nb : Arr2 R 128) (W : Arr2 128 256) (b : Arr2 1 256) : Arr2 R 128 :=
  fun i => Ideal.logistic (affine e W b (i 0) (lo (i 1))) * affine e W b (i 0) (hi (i 1)) * nb i

/-- The constant added to the moving variance: the single-precision number nearest to one thousandth. -/
def eps : EReal := Ideal.ofBits .f32 0x3A83126F#32

/-- Residual sum, normalisation by the moving statistics, learnt scale and shift, clamp at zero. -/
def normRelu {R : Nat} (h agg : Arr2 R 128) (gamma beta mean var : Arr2 1 128) : Arr2 R 128 :=
  fun i => max (((h i + agg i) - mean (ix2 (0 : Fin 1) (i 1))) * Ideal.rsqrt (var (ix2 (0 : Fin 1) (i 1)) + eps)
      * gamma (ix2 (0 : Fin 1) (i 1)) + beta (ix2 (0 : Fin 1) (i 1))) (Ideal.ofBits .f32 0x00000000#32)

end Cert.Spec

end
-- ==== Proof.KValue.lean ====
/-
  The idealized kernel program's result as ONE function of its thirteen arguments.

  Reading the fold through the program backwards from the result buffer: the third region leaves the normalised,
  clamped residual sum of the hidden rows and the aggregated messages; the aggregated messages are the mean, at each
  destination node, of the second region's gated messages; those are computed from the edge features, the two weight
  matrices side by side, the two bias vectors end to end, and the hidden rows gathered at the edges' source nodes; the
  hidden rows are the first region's node projection. A region's output array is the stated function of the arrays it
  finds (the three hypotheses below, one per region); a host stretch applies its operations to what it finds; and
  nothing ever writes an argument, so every argument is read at its launch contents.
-/
import proofs.«166731_j47974784696372_1_alg».proof.Proof.Gen.KernelIdeal.Frame
import proofs.«166731_j47974784696372_1_alg».proof.Proof.KHost
import proofs.«166731_j47974784696372_1_alg».proof.Proof.KHostMid
import proofs.«166731_j47974784696372_1_alg».proof.Proof.KHostLate
import proofs.«166731_j47974784696372_1_alg».proof.Proof.Spec

set_option maxRecDepth 16384

noncomputable section

namespace Cert.KernelIdeal.KValue

open Idealize.ShloMosaic Idealize.ShloMosaic.TcCoe Idealize.SL.Sem
open Cert.KernelIdeal Cert.KernelIdeal.Gen Cert.KernelIdeal.KHost

/-- The buffer contents a region is entered at. -/
abbrev Entry : Type := (c : Dev nD) → (b : Ref sig .tc) → Buf (Elt Ideal) ((c : Thread nD τ).loc b)

/-- The hidden rows: the node projection with the bias laid out as a row. -/
def hidden (x : (⟨S50000x128, .f32⟩ : BufTy).Contents (Elt Ideal)) (w : (⟨S128x128, .f32⟩ : BufTy).Contents (Elt Ideal))
    (b : (⟨S128, .f32⟩ : BufTy).Contents (Elt Ideal)) : (⟨S50000x128, .f32⟩ : BufTy).Contents (Elt Ideal) :=
  Cert.Spec.nodeProj (R := 50000) x w (row128 b)

/-- The whole layer: node projection, gather, gated messages, mean at the destinations, normalisation and clamp. -/
def layer (a0 : (⟨S50000x128, .f32⟩ : BufTy).Contents (Elt Ideal)) (a1 : (⟨S800000x128, .f32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal))
    (a6 : (⟨S128x128, .f32⟩ : BufTy).Contents (Elt Ideal)) (a7 : (⟨S128, .f32⟩ : BufTy).Contents (Elt Ideal))
    (a8 a9 a10 a11 : (⟨S128, .f32⟩ : BufTy).Contents (Elt Ideal)) (a12 : (⟨S800000x2, .i32⟩ : BufTy).Contents (Elt Ideal)) :
    (⟨S50000x128, .f32⟩ : BufTy).Contents (Elt Ideal) :=
  Cert.Spec.normRelu (R := 50000) (hidden a0 a2 a3)
    (meanAtDst (Cert.Spec.gatedMsg (R := 800000) a1 (takeSrc (hidden a0 a2 a3) a12) (sideBySide a4 a6) (row256 a5 a7)) a12)
    (row128 a8) (row128 a9) (row128 a10) (row128 a11)

variable (m : (ℓ : Loc nD τ sig) → Buf (Elt Ideal) ℓ) (ρ : Dev nD → PrngReg) (c : Dev nD)

/-- What each region leaves in its output array, as a function of the arrays it finds. -/
structure RegionFacts : Prop where
  proj : ∀ (V : Entry) (c : Dev nD), (dat0 (F := Ideal) V c).arrAt 3 cfg0.N
      = Cert.Spec.nodeProj (R := 50000) (V c main_arg0) (V c main_arg2) (V c main_v0)
  msg : ∀ (V : Entry) (c : Dev nD), (dat1 (F := Ideal) V c).arrAt 4 cfg1.N
      = Cert.Spec.gatedMsg (R := 800000) (V c main_arg1) (V c main_v4) (V c main_v5) (V c main_v7)
  norm : ∀ (V : Entry) (c : Dev nD), (dat2 (F := Ideal) V c).arrAt 6 cfg2.N
      = Cert.Spec.normRelu (R := 50000) (V c main_v1) (V c main_v25) (V c main_v26) (V c main_v27) (V c main_v28) (V c main_v29)

/-! ## Arguments at the first region's exit: nothing has written them -/

theorem exit0_arg1 : W2 m ρ c (Proc.devRef .tc main_arg1) = m ((c : Thread nD τ).loc main_arg1) :=
  (W2_of_ne m ρ c main_arg1 (by decide)).trans (pre0_arg1 (W0 m ρ c))
theorem exit0_arg4 : W2 m ρ c (Proc.devRef .tc main_arg4) = m ((c : Thread nD τ).loc main_arg4) :=
  (W2_of_ne m ρ c main_arg4 (by decide)).trans (pre0_arg4 (W0 m ρ c))
theorem exit0_arg5 : W2 m ρ c (Proc.devRef .tc main_arg5) = m ((c : Thread nD τ).loc main_arg5) :=
  (W2_of_ne m ρ c main_arg5 (by decide)).trans (pre0_arg5 (W0 m ρ c))
theorem exit0_arg6 : W2 m ρ c (Proc.devRef .tc main_arg6) = m ((c : Thread nD τ).loc main_arg6) :=
  (W2_of_ne m ρ c main_arg6 (by decide)).trans (pre0_arg6 (W0 m ρ c))
theorem exit0_arg7 : W2 m ρ c (Proc.devRef .tc main_arg7) = m ((c : Thread nD τ).loc main_arg7) :=
  (W2_of_ne m ρ c main_arg7 (by decide)).trans (pre0_arg7 (W0 m ρ c))
theorem exit0_arg8 : W2 m ρ c (Proc.devRef .tc main_arg8) = m ((c : Thread nD τ).loc main_arg8) :=
  (W2_of_ne m ρ c main_arg8 (by decide)).trans (pre0_arg8 (W0 m ρ c))
theorem exit0_arg9 : W2 m ρ c (Proc.devRef .tc main_arg9) = m ((c : Thread nD τ).loc main_arg9) :=
  (W2_of_ne m ρ c main_arg9 (by decide)).trans (pre0_arg9 (W0 m ρ c))
theorem exit0_arg10 : W2 m ρ c (Proc.devRef .tc main_arg10) = m ((c : Thread nD τ).loc main_arg10) :=
  (W2_of_ne m ρ c main_arg10 (by decide)).trans (pre0_arg10 (W0 m ρ c))
theorem exit0_arg11 : W2 m ρ c (Proc.devRef .tc main_arg11) = m ((c : Thread nD τ).loc main_arg11) :=
  (W2_of_ne m ρ c main_arg11 (by decide)).trans (pre0_arg11 (W0 m ρ c))
theorem exit0_arg12 : W2 m ρ c (Proc.devRef .tc main_arg12) = m ((c : Thread nD τ).loc main_arg12) :=
  (W2_of_ne m ρ c main_arg12 (by decide)).trans (pre0_arg12 (W0 m ρ c))

variable (hR : RegionFacts)
include hR

/-- The first region's output: the hidden rows. -/
theorem exit0_hidden : W2 m ρ c (Proc.devRef .tc main_v1) = hidden (m ((c : Thread nD τ).loc main_arg0)) (m ((c : Thread nD τ).loc main_arg2)) (m ((c : Thread nD τ).loc main_arg3)) := by
  refine (W2_arr m ρ c 3).trans ((hR.proj (V1 m ρ) c).trans ?_)
  unfold hidden
  rw [show V1 m ρ c main_v0 = row128 (m ((c : Thread nD τ).loc main_arg3)) from bias_row (W0 m ρ c),
    show V1 m ρ c main_arg0 = (m ((c : Thread nD τ).loc main_arg0)) from pre0_arg0 (W0 m ρ c),
    show V1 m ρ c main_arg2 = (m ((c : Thread nD τ).loc main_arg2)) from pre0_arg2 (W0 m ρ c)]

set_option maxHeartbeats 800000 in
/-- The second region's output: the gated messages. -/
theorem exit1_msg : W6 m ρ c (Proc.devRef .tc main_v8)
    = Cert.Spec.gatedMsg (R := 800000) (m ((c : Thread nD τ).loc main_arg1)) (takeSrc (hidden (m ((c : Thread nD τ).loc main_arg0)) (m ((c : Thread nD τ).loc main_arg2)) (m ((c : Thread nD τ).loc main_arg3))) (m ((c : Thread nD τ).loc main_arg12)))
        (sideBySide (m ((c : Thread nD τ).loc main_arg4)) (m ((c : Thread nD τ).loc main_arg6))) (row256 (m ((c : Thread nD τ).loc main_arg5)) (m ((c : Thread nD τ).loc main_arg7))) := by
  refine (W6_arr m ρ c 4).trans ((hR.msg (V5 m ρ) c).trans ?_)
  rw [show V5 m ρ c main_arg1 = W2 m ρ c (Proc.devRef .tc main_arg1) from pre1_arg1 (W2 m ρ c),
    show V5 m ρ c main_v4 = takeSrc (W2 m ρ c (Proc.devRef .tc main_v1)) (W2 m ρ c (Proc.devRef .tc main_arg12)) from gathered (W2 m ρ c),
    show V5 m ρ c main_v5 = sideBySide (W2 m ρ c (Proc.devRef .tc main_arg4)) (W2 m ρ c (Proc.devRef .tc main_arg6)) from weights256 (W2 m ρ c),
    show V5 m ρ c main_v7 = row256 (W2 m ρ c (Proc.devRef .tc main_arg5)) (W2 m ρ c (Proc.devRef .tc main_arg7)) from bias256 (W2 m ρ c),
    exit0_hidden m ρ c hR, exit0_arg1 m ρ c, exit0_arg12 m ρ c, exit0_arg4 m ρ c, exit0_arg6 m ρ c, exit0_arg5 m ρ c, exit0_arg7 m ρ c]

omit hR in
/-- A buffer the second region does not own, and the stretch before it does not write, is as the first region left it. -/
theorem exit1_of_exit0 (b : Ref sig .tc) (hb : ∀ w, Pipeline.arrRef spec1 w ≠ b)
    (hpre : StableHlo.after hostOps1_2 (StableHlo.after hostOps1_1 (StableHlo.after hostOps1 (W2 m ρ c))) (Proc.devRef .tc b) = W2 m ρ c (Proc.devRef .tc b)) :
    W6 m ρ c (Proc.devRef .tc b) = W2 m ρ c (Proc.devRef .tc b) :=
  (W6_of_ne m ρ c b hb).trans hpre

set_option maxHeartbeats 1600000 in
/-- The result buffer at the last boundary: the whole layer of the launch contents. -/
theorem result_eq : W10 m ρ c (Proc.devRef .tc main_v30)
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W10_arr m ρ c 6).trans ((hR.norm (V9 m ρ) c).trans ?_)
  unfold layer
  rw [show V9 m ρ c main_v1 = W6 m ρ c (Proc.devRef .tc main_v1) from pre2_v1 (W6 m ρ c),
    show V9 m ρ c main_v25 = meanAtDst (W6 m ρ c (Proc.devRef .tc main_v8)) (W6 m ρ c (Proc.devRef .tc main_arg12)) from aggregated (W6 m ρ c),
    show V9 m ρ c main_v26 = row128 (W6 m ρ c (Proc.devRef .tc main_arg8)) from gamma_row (W6 m ρ c),
    show V9 m ρ c main_v27 = row128 (W6 m ρ c (Proc.devRef .tc main_arg9)) from beta_row (W6 m ρ c),
    show V9 m ρ c main_v28 = row128 (W6 m ρ c (Proc.devRef .tc main_arg10)) from mean_row (W6 m ρ c),
    show V9 m ρ c main_v29 = row128 (W6 m ρ c (Proc.devRef .tc main_arg11)) from var_row (W6 m ρ c),
    exit1_msg m ρ c hR,
    exit1_of_exit0 m ρ c main_v1 (by decide) (pre1_v1 (W2 m ρ c)),
    exit1_of_exit0 m ρ c main_arg12 (by decide) (pre1_arg12 (W2 m ρ c)),
    exit1_of_exit0 m ρ c main_arg8 (by decide) (pre1_arg8 (W2 m ρ c)),
    exit1_of_exit0 m ρ c main_arg9 (by decide) (pre1_arg9 (W2 m ρ c)),
    exit1_of_exit0 m ρ c main_arg10 (by decide) (pre1_arg10 (W2 m ρ c)),
    exit1_of_exit0 m ρ c main_arg11 (by decide) (pre1_arg11 (W2 m ρ c)),
    exit0_hidden m ρ c hR, exit0_arg12 m ρ c, exit0_arg8 m ρ c, exit0_arg9 m ρ c, exit0_arg10 m ρ c, exit0_arg11 m ρ c]

end Cert.KernelIdeal.KValue

end
-- ==== Proof.Region0Value.lean ====
/-
  Region 0 (node projection): the output array after the pipeline is ONE function of the three input arrays as the
  region finds them — every row of the node features against every column of the weight matrix, plus the bias row.

  Three steps: the body's arithmetic at one index of a block (the block product into the zero accumulator is the plain
  sum over the 128 contraction positions); what a grid point writes back is its block of that function of the WHOLE
  arrays (each input block read where the output's rectangle says); the ten blocks of 5000 rows cover the 50000 rows.
-/
import proofs.«166731_j47974784696372_1_alg».proof.Proof.Gen.KernelIdeal.Frame
import proofs.«166731_j47974784696372_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer load or store, as a constant function. -/
theorem zeroOffsets0 : (![0, 0] : Fin 2 → Nat) = fun _ => 0 := funext fun a => by fin_cases a <;> rfl

/-- A 1 × 128 row broadcast over 5000 rows, read at row `p`, column `q`, is the row's entry `q`. -/
theorem biasBroadcast_apply {α : Type} (x : S1x128.Idx → α) (h : S1x128.Broadcasts S5000x128) (p : Fin 5000) (q : Fin 128) :
    broadcastTo S5000x128 x h (ix2 p q) = x (ix2 (0 : Fin 1) q) :=
  broadcastTo_apply x h (ix2 p q) (ix2 (0 : Fin 1) q) (fun a => by
    match a with
    | ⟨0, _⟩ => rfl
    | ⟨1, _⟩ => rfl)

/-- The block product's dimension numbers: rows × contraction times contraction × columns. -/
abbrev dims0 : DotDims S5000x128 S128x128 S5000x128 := dot_S5000x128_S128x128_S5000x128_1_0_0_1_n_n

/-- The block product into the zero accumulator, read at row `p`, column `q`: the sum over the 128 contraction
    positions of the left operand's row `p` times the right operand's column `q`. -/
theorem blockProduct0_apply {φ₁ φ₂ : FTy} (x : FVec Ideal S5000x128 φ₁) (w : FVec Ideal S128x128 φ₂) (p : Fin 5000) (q : Fin 128) :
    FloatOps.matmul dims0 none x w (constant S5000x128 .f32 0x00000000#32) (ix2 p q)
      = ∑ k : Fin 128, x (ix2 p k) * w (ix2 k q) := by
  rw [Ideal.matmul_constant_zero_apply, ← Equiv.sum_comp (contrEquiv1 dims0 128 rfl rfl).symm]
  refine Finset.sum_congr rfl fun k _ => ?_
  have el : dims0.lhsIdx (ix2 p q) ((contrEquiv1 dims0 128 rfl rfl).symm k) = ix2 p k := by
    funext a; apply Fin.ext
    match a with
    | ⟨0, _⟩ => rfl
    | ⟨1, _⟩ => exact (dims0.lhsIdx_val_of_single (cl := (1 : Fin 2)) rfl _ _).trans (contrEquiv1_symm_val dims0 128 rfl rfl k)
  have er : dims0.rhsIdx (ix2 p q) ((contrEquiv1 dims0 128 rfl rfl).symm k) = ix2 k q := by
    funext a; apply Fin.ext
    match a with
    | ⟨0, _⟩ => exact (dims0.rhsIdx_val_of_single (cr := (0 : Fin 2)) rfl _ _).trans (contrEquiv1_symm_val dims0 128 rfl rfl k)
    | ⟨1, _⟩ => rfl
  rw [el, er]

/-- THE BODY AT AN INDEX: the payload of a block of 5000 rows at row `p`, column `q` is the specification's affine
    image of the same blocks there. -/
theorem nodeProj_apply (x : Vec Ideal S5000x128 .f32) (w : Vec Ideal S128x128 .f32) (b : Vec Ideal S1x128 .f32)
    (p : Fin 5000) (q : Fin 128) :
    Gen.k0_pay1 x w b (ix2 p q) = Cert.Spec.affine x w b p q := by
  unfold Gen.k0_pay1 Cert.Spec.affine
  simp only [shapeCast_self, addf_apply, biasBroadcast_apply]
  refine congrArg (· + b (ix2 (0 : Fin 1) q)) ?_
  exact (blockProduct0_apply _ _ p q).trans (Finset.sum_congr rfl fun k _ => rfl)

/-- The specification at row `p`, column `q` is the affine image there. -/
theorem nodeProj_ix2 {R : Nat} (x : Cert.Spec.Arr2 R 128) (w : Cert.Spec.Arr2 128 128) (b : Cert.Spec.Arr2 1 128) (p : Fin R) (q : Fin 128) :
    Cert.Spec.nodeProj x w b (ix2 p q) = Cert.Spec.affine x w b p q := rfl

/-- The affine image spelt out: the 128-term sum plus the bias entry. -/
theorem affine_eq {R C : Nat} (x : Cert.Spec.Arr2 R 128) (w : Cert.Spec.Arr2 128 C) (b : Cert.Spec.Arr2 1 C) (p : Fin R) (q : Fin C) :
    Cert.Spec.affine x w b p q = (∑ k : Fin 128, x (ix2 p k) * w (ix2 k q)) + b (ix2 (0 : Fin 1) q) := rfl

/-- Row `p` of row-block `t`, column `q`, as an index of the 50000 × 128 arrays. -/
abbrev rowAt0 (t : Fin cfg0.N) (p : Fin 5000) (q : Fin 128) : S50000x128.Idx :=
  ix2 (⟨t.val * 5000 + p.val, by have ht : t.val < 10 := t.isLt; have hp := p.isLt; omega⟩ : Fin 50000) q

/-- The printed index maps, decided once over the ten grid points: the node features move with the output (block `t`
    of rows, the one block of columns); the weight matrix and the bias row stay at their one block. -/
theorem blockIndex0 : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The specification's function of the three arrays as the region finds them. -/
abbrev whole0 (c : Dev nD) : Cert.Spec.Arr2 50000 128 :=
  Cert.Spec.nodeProj (V c main_arg0) (V c main_arg2) (V c main_v0)

/-- WHAT POINT `t` WRITES BACK is block `t` of that function of the whole arrays. -/
theorem flushed_eq0 (c : Dev nD) (t : Fin cfg0.N) :
    (Gen.dat0 (F := Ideal) V c).flushed 3 t = ((cfg0.win 3).blk t).view.read (Elt Ideal) (whole0 V c) := by
  show (cfg0.win 3).cut (grid0.coords t) ((Gen.dat0 V c).after 3 t) = _
  rw [Gen.after0_3]
  unfold Gen.out0_3
  rw [View.canon_unit_zero zeroOffsets0]
  simp only [View.ld_unit_zero (S := S5000x128) zeroOffsets0, View.ld_unit_zero (S := S128x128) zeroOffsets0,
    View.ld_unit_zero (S := S1x128) zeroOffsets0]
  obtain ⟨o0, o1, a0, a1, w0, w1, b0, b1⟩ := blockIndex0 t
  funext j
  obtain ⟨p, q, rfl⟩ : ∃ (p : Fin 5000) (q : Fin 128), j = ix2 p q := ⟨j 0, j 1, eq_ix2 j⟩
  -- each block read where the output's rectangle says
  have eo : ((cfg0.win 3).blk t).view.emb (ix2 p q) = rowAt0 t p q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have r0 : ∀ k : Fin 128, Gen.iblk0 V c 0 t (ix2 p k) = V c main_arg0 (rowAt0 t p k) := fun k => by
    show V c main_arg0 (((cfg0.win 0).blk t).view.emb (ix2 p k)) = V c main_arg0 (rowAt0 t p k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have r1 : ∀ k : Fin 128, Gen.iblk0 V c 1 t (ix2 k q) = V c main_arg2 (ix2 k q) := fun k => by
    show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have r2 : Gen.iblk0 V c 2 t (ix2 (0 : Fin 1) q) = V c main_v0 (ix2 (0 : Fin 1) q) := by
    show V c main_v0 (((cfg0.win 2).blk t).view.emb (ix2 (0 : Fin 1) q)) = V c main_v0 (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  refine (nodeProj_apply _ _ _ p q).trans ?_
  show Cert.Spec.affine _ _ _ p q
      = Cert.Spec.nodeProj (V c main_arg0) (V c main_arg2) (V c main_v0) (((cfg0.win 3).blk t).view.emb (ix2 p q))
  rw [eo, nodeProj_ix2, affine_eq, affine_eq, r2]
  exact congrArg (· + V c main_v0 (ix2 (0 : Fin 1) q)) (Finset.sum_congr rfl fun k _ => by rw [r0 k, r1 k])

/-- An index of the array is in point `t`'s block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- THE COVER: row `r` is in the block of point `r / 5000`, and every point writes its block back. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by show (i 0).val / 5000 < 10; omega⟩
  have htv : t.val = (i 0).val / 5000 := rfl
  obtain ⟨o0, o1, -⟩ := blockIndex0 t
  refine ⟨t, Gen.flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the pipeline is the specification's function of the three arrays as the region finds them. -/
theorem final0 (c : Dev nD) : (Gen.dat0 (F := Ideal) V c).arrAt 3 cfg0.N
    = Cert.Spec.nodeProj (V c main_arg0) (V c main_arg2) (V c main_v0) :=
  (Gen.dat0 (F := Ideal) V c).arrAt_eq_of_cover 3 (whole0 V c) (fun t _ => flushed_eq0 V c t) cover0

end Cert.KernelIdeal.RegionValue
end
-- ==== Proof.Region1Value.lean ====
/-
  Region 1 (gated messages): the output array after the pipeline is ONE function of the four input arrays as the
  region finds them — for every edge, the logistic of the first 128 columns of the edge's affine image times the last
  128 columns, times the gathered neighbour row, entry by entry.

  Three steps: the body's arithmetic at one index of a block (the block product into the zero accumulator is the plain
  sum over the 128 contraction positions; the two slices of the 256 columns read columns `q` and `q + 128`); what a grid
  point writes back is its block of that function of the WHOLE arrays (each input block read where the output's rectangle
  says); the two hundred blocks of 4000 rows cover the 800000 rows.
-/
import proofs.«166731_j47974784696372_1_alg».proof.Proof.Gen.KernelIdeal.Frame
import proofs.«166731_j47974784696372_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer load or store, as a constant function. -/
theorem zeroOffsets1 : (![0, 0] : Fin 2 → Nat) = fun _ => 0 := funext fun a => by fin_cases a <;> rfl

/-- A 1 × 256 row broadcast over 4000 rows, read at row `p`, column `r`, is the row's entry `r`. -/
theorem biasBroadcast1_apply {α : Type} (x : S1x256.Idx → α) (h : S1x256.Broadcasts S4000x256) (p : Fin 4000) (r : Fin 256) :
    broadcastTo S4000x256 x h (ix2 p r) = x (ix2 (0 : Fin 1) r) :=
  broadcastTo_apply x h (ix2 p r) (ix2 (0 : Fin 1) r) (fun a => by
    match a with
    | ⟨0, _⟩ => rfl
    | ⟨1, _⟩ => rfl)

/-- The slice of the first 128 of the 256 columns, read at row `p`, column `q`, is the operand at column `q`. -/
theorem gateSlice_apply {α : Type} (x : S4000x256.Idx → α) (h : S4000x256.Slices ![0, 0] S4000x128) (p : Fin 4000) (q : Fin 128) :
    extractStridedSlice S4000x128 ![0, 0] x h (ix2 p q) = x (ix2 p (Cert.Spec.lo q)) :=
  extractStridedSlice_apply ![0, 0] x h (ix2 p q) (ix2 p (Cert.Spec.lo q)) (fun a => by
    match a with
    | ⟨0, _⟩ => show p.val = 0 + p.val; omega
    | ⟨1, _⟩ => show q.val = 0 + q.val; omega)

/-- The slice of the last 128 of the 256 columns, read at row `p`, column `q`, is the operand at column `q + 128`. -/
theorem filterSlice_apply {α : Type} (x : S4000x256.Idx → α) (h : S4000x256.Slices ![0, 128] S4000x128) (p : Fin 4000) (q : Fin 128) :
    extractStridedSlice S4000x128 ![0, 128] x h (ix2 p q) = x (ix2 p (Cert.Spec.hi q)) :=
  extractStridedSlice_apply ![0, 128] x h (ix2 p q) (ix2 p (Cert.Spec.hi q)) (fun a => by
    match a with
    | ⟨0, _⟩ => show p.val = 0 + p.val; omega
    | ⟨1, _⟩ => show q.val + 128 = 128 + q.val; omega)

/-- The logistic of a vector at an index is the logistic of its entry. -/
theorem logisticVec_apply {s : Shape} {φ : FTy} (a : FVec Ideal s φ) (i : s.Idx) : logistic a i = Ideal.logistic (a i) := rfl

/-- The block product's dimension numbers: rows × contraction times contraction × columns. -/
abbrev dims1 : DotDims S4000x128 S128x256 S4000x256 := dot_S4000x128_S128x256_S4000x256_1_0_0_1_n_n

/-- The block product into the zero accumulator, read at row `p`, column `r`: the sum over the 128 contraction
    positions of the left operand's row `p` times the right operand's column `r`. -/
theorem blockProduct1_apply {φ₁ φ₂ : FTy} (x : FVec Ideal S4000x128 φ₁) (w : FVec Ideal S128x256 φ₂) (p : Fin 4000) (r : Fin 256) :
    FloatOps.matmul dims1 none x w (constant S4000x256 .f32 0x00000000#32) (ix2 p r)
      = ∑ k : Fin 128, x (ix2 p k) * w (ix2 k r) := by
  rw [Ideal.matmul_constant_zero_apply, ← Equiv.sum_comp (contrEquiv1 dims1 128 rfl rfl).symm]
  refine Finset.sum_congr rfl fun k _ => ?_
  have el : dims1.lhsIdx (ix2 p r) ((contrEquiv1 dims1 128 rfl rfl).symm k) = ix2 p k := by
    funext a; apply Fin.ext
    match a with
    | ⟨0, _⟩ => rfl
    | ⟨1, _⟩ => exact (dims1.lhsIdx_val_of_single (cl := (1 : Fin 2)) rfl _ _).trans (contrEquiv1_symm_val dims1 128 rfl rfl k)
  have er : dims1.rhsIdx (ix2 p r) ((contrEquiv1 dims1 128 rfl rfl).symm k) = ix2 k r := by
    funext a; apply Fin.ext
    match a with
    | ⟨0, _⟩ => exact (dims1.rhsIdx_val_of_single (cr := (0 : Fin 2)) rfl _ _).trans (contrEquiv1_symm_val dims1 128 rfl rfl k)
    | ⟨1, _⟩ => rfl
  rw [el, er]

/-- The affine image spelt out: the 128-term sum plus the bias entry. -/
theorem affine_eq1 {R C : Nat} (x : Cert.Spec.Arr2 R 128) (w : Cert.Spec.Arr2 128 C) (b : Cert.Spec.Arr2 1 C) (p : Fin R) (q : Fin C) :
    Cert.Spec.affine x w b p q = (∑ k : Fin 128, x (ix2 p k) * w (ix2 k q)) + b (ix2 (0 : Fin 1) q) := rfl

/-- The specification at row `p`, column `q`, spelt out. -/
theorem gatedMsg_ix2 {R : Nat} (e nb : Cert.Spec.Arr2 R 128) (w : Cert.Spec.Arr2 128 256) (b : Cert.Spec.Arr2 1 256) (p : Fin R) (q : Fin 128) :
    Cert.Spec.gatedMsg e nb w b (ix2 p q)
      = Ideal.logistic (Cert.Spec.affine e w b p (Cert.Spec.lo q)) * Cert.Spec.affine e w b p (Cert.Spec.hi q) * nb (ix2 p q) := rfl

/-- THE BODY AT AN INDEX: the payload of a block of 4000 rows at row `p`, column `q` is the specification's
    function of the same blocks there. -/
theorem gatedMsg_apply (e : Vec Ideal S4000x128 .f32) (w : Vec Ideal S128x256 .f32) (b : Vec Ideal S1x256 .f32)
    (nb : Vec Ideal S4000x128 .f32) (p : Fin 4000) (q : Fin 128) :
    Gen.k1_pay1 e w b nb (ix2 p q) = Cert.Spec.gatedMsg e nb w b (ix2 p q) := by
  rw [gatedMsg_ix2, affine_eq1, affine_eq1]
  unfold Gen.k1_pay1
  simp only [shapeCast_self, mulf_apply, logisticVec_apply, gateSlice_apply, filterSlice_apply, addf_apply,
    biasBroadcast1_apply, matmul, blockProduct1_apply, truncf_apply]

/-- Row `p` of row-block `t`, column `q`, as an index of the 800000 × 128 arrays. -/
abbrev rowAt1 (t : Fin cfg1.N) (p : Fin 4000) (q : Fin 128) : S800000x128.Idx :=
  ix2 (⟨t.val * 4000 + p.val, by have ht : t.val < 200 := t.isLt; have hp := p.isLt; omega⟩ : Fin 800000) q

/-- The printed index maps, decided once over the two hundred grid points: the edge features and the gathered
    neighbour rows move with the output (block `t` of rows, the one block of columns); the weight matrix and the bias
    row stay at their one block. -/
theorem blockIndex1 : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The specification's function of the four arrays as the region finds them. -/
abbrev whole1 (c : Dev nD) : Cert.Spec.Arr2 800000 128 :=
  Cert.Spec.gatedMsg (V c main_arg1) (V c main_v4) (V c main_v5) (V c main_v7)

/-- WHAT POINT `t` WRITES BACK is block `t` of that function of the whole arrays. -/
theorem flushed_eq1 (c : Dev nD) (t : Fin cfg1.N) :
    (Gen.dat1 (F := Ideal) V c).flushed 4 t = ((cfg1.win 4).blk t).view.read (Elt Ideal) (whole1 V c) := by
  show (cfg1.win 4).cut (grid1.coords t) ((Gen.dat1 V c).after 4 t) = _
  rw [Gen.after1_4]
  unfold Gen.out1_4
  rw [View.canon_unit_zero zeroOffsets1]
  simp only [View.ld_unit_zero (S := S4000x128) zeroOffsets1, View.ld_unit_zero (S := S128x256) zeroOffsets1,
    View.ld_unit_zero (S := S1x256) zeroOffsets1]
  obtain ⟨o0, o1, a0, a1, n0, n1, w0, w1, b0, b1⟩ := blockIndex1 t
  funext j
  obtain ⟨p, q, rfl⟩ : ∃ (p : Fin 4000) (q : Fin 128), j = ix2 p q := ⟨j 0, j 1, eq_ix2 j⟩
  -- each block read where the output's rectangle says
  have eo : ((cfg1.win 4).blk t).view.emb (ix2 p q) = rowAt1 t p q := by
    funext a; apply Fin.ext
    match a with
    | ⟨0, _⟩ => show win1_4.index t (0 : Fin 2) * 4000 + 1 * p.val = t.val * 4000 + p.val; omega
    | ⟨1, _⟩ => show win1_4.index t (1 : Fin 2) * 128 + 1 * q.val = q.val; omega
  have r0 : ∀ k : Fin 128, Gen.iblk1 V c 0 t (ix2 p k) = V c main_arg1 (rowAt1 t p k) := fun k => by
    show V c main_arg1 (((cfg1.win 0).blk t).view.emb (ix2 p k)) = V c main_arg1 (rowAt1 t p k)
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  have r1 : Gen.iblk1 V c 1 t (ix2 p q) = V c main_v4 (rowAt1 t p q) := by
    show V c main_v4 (((cfg1.win 1).blk t).view.emb (ix2 p q)) = V c main_v4 (rowAt1 t p q)
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 128 + 1 * q.val = q.val; omega
  have r2 : ∀ (k : Fin 128) (r : Fin 256), Gen.iblk1 V c 2 t (ix2 k r) = V c main_v5 (ix2 k r) := fun k r => by
    show V c main_v5 (((cfg1.win 2).blk t).view.emb (ix2 k r)) = V c main_v5 (ix2 k r)
    refine congrArg _ (funext fun a => Fin.ext ?_)
    match a with
    | ⟨0, _⟩ => show win1_2.index t (0 : Fin 2) * 128 + 1 * k.val = k.val; omega
    | ⟨1, _⟩ => show win1_2.index t (1 : Fin 2) * 256 + 1 * r.val = r.val; omega
  have r3 : ∀ r : Fin 256, Gen.iblk1 V c 3 t (ix2 (0 : Fin 1) r) = V c main_v7 (ix2 (0 : Fin 1) r) := fun r => by
    show V c main_v7 (((cfg1.win 3).blk t).view.emb (ix2 (0 : Fin 1) r)) = V c main_v7 (ix2 (0 : Fin 1) r)
    refine congrArg _ (funext fun a => Fin.ext ?_)
    match a with
    | ⟨0, _⟩ => show win1_3.index t (0 : Fin 2) * 1 + 1 * 0 = 0; omega
    | ⟨1, _⟩ => show win1_3.index t (1 : Fin 2) * 256 + 1 * r.val = r.val; omega
  refine (gatedMsg_apply _ _ _ _ p q).trans ?_
  show Cert.Spec.gatedMsg _ _ _ _ (ix2 p q)
      = Cert.Spec.gatedMsg (V c main_arg1) (V c main_v4) (V c main_v5) (V c main_v7) (((cfg1.win 4).blk t).view.emb (ix2 p q))
  rw [eo, gatedMsg_ix2, gatedMsg_ix2, affine_eq1, affine_eq1, affine_eq1, affine_eq1, r1, r3, r3]
  simp only [r0, r2]

/-- An index of the array is in point `t`'s block iff each coordinate is in the block's range on its axis. -/
theorem mem_block1 (t : Fin cfg1.N) (i : S800000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v8).slice (win1_4.rect t)).set ↔ _
  rw [View.set_slice_whole, Rect.mem_set_unit]
  exact Iff.rfl

/-- THE COVER: row `r` is in the block of point `r / 4000`, and every point writes its block back. -/
theorem cover1 (i : S800000x128.Idx) :
    ∃ t : Fin cfg1.N, (cfg1.win 4).flush t = true ∧ i ∈ ((cfg1.win 4).blk t).view.set := by
  have hi0 : (i 0).val < 800000 := (i 0).isLt
  have hi1 : (i 1).val < 128 := (i 1).isLt
  let t : Fin cfg1.N := ⟨(i 0).val / 4000, by show (i 0).val / 4000 < 200; omega⟩
  have htv : t.val = (i 0).val / 4000 := rfl
  obtain ⟨o0, o1, -⟩ := blockIndex1 t
  refine ⟨t, Gen.flush1_4 t, ?_⟩
  rw [mem_block1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- THE ARRAY after the pipeline is the specification's function of the four arrays as the region finds them. -/
theorem final1 (c : Dev nD) : (Gen.dat1 (F := Ideal) V c).arrAt 4 cfg1.N
    = Cert.Spec.gatedMsg (V c main_arg1) (V c main_v4) (V c main_v5) (V c main_v7) :=
  (Gen.dat1 (F := Ideal) V c).arrAt_eq_of_cover 4 (whole1 V c) (fun t _ => flushed_eq1 V c t) cover1

end Cert.KernelIdeal.RegionValue
end
-- ==== Proof.Region2Value.lean ====
/-
  Region 2 (normalisation and clamp): the output array after the pipeline is ONE function of the six input arrays
  as the region finds them — the residual sum centred by the moving mean, scaled by the reciprocal square root of
  the moving variance plus a constant, scaled and shifted by the learnt rows, clamped below at zero.

  Three steps: the body's arithmetic at one index of a block; what a grid point writes back is its block of that
  function of the WHOLE arrays (each input block read where the output's rectangle says); the ten blocks of 5000
  rows cover the 50000 rows.
-/
import proofs.«166731_j47974784696372_1_alg».proof.Proof.Gen.KernelIdeal.Frame
import proofs.«166731_j47974784696372_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer load or store, as a constant function. -/
theorem zeroOffsets2 : (![0, 0] : Fin 2 → Nat) = fun _ => 0 := funext fun a => by fin_cases a <;> rfl

/-- A 1 × 128 row broadcast over 5000 rows, read at row `p`, column `q`, is the row's entry `q`. -/
theorem rowBroadcast5000_apply {α : Type} (x : S1x128.Idx → α) (h : S1x128.Broadcasts S5000x128) (p : Fin 5000) (q : Fin 128) :
    broadcastTo S5000x128 x h (ix2 p q) = x (ix2 (0 : Fin 1) q) :=
  broadcastTo_apply x h (ix2 p q) (ix2 (0 : Fin 1) q) (fun a => by
    match a with
    | ⟨0, _⟩ => rfl
    | ⟨1, _⟩ => rfl)

/-- THE BODY AT AN INDEX: the payload of a block of 5000 rows at row `p`, column `q` is the specification's
    function of the same blocks there. -/
theorem bnRelu_apply (h agg : Vec Ideal S5000x128 .f32) (var mean gamma beta : Vec Ideal S1x128 .f32)
    (p : Fin 5000) (q : Fin 128) :
    Gen.k2_pay1 h agg var mean gamma beta (ix2 p q) = Cert.Spec.normRelu h agg gamma beta mean var (ix2 p q) := by
  unfold Gen.k2_pay1 Cert.Spec.normRelu Cert.Spec.eps
  simp only [shapeCast_self, maximumf_apply, addf_apply, mulf_apply, subf_apply, rowBroadcast5000_apply, broadcast_apply]
  rfl

/-- The specification's function at row `p`, column `q`, spelt out. -/
theorem normRelu_ix2 {R : Nat} (h agg : Cert.Spec.Arr2 R 128) (gamma beta mean var : Cert.Spec.Arr2 1 128) (p : Fin R) (q : Fin 128) :
    Cert.Spec.normRelu h agg gamma beta mean var (ix2 p q)
      = max (((h (ix2 p q) + agg (ix2 p q)) - mean (ix2 (0 : Fin 1) q)) * Ideal.rsqrt (var (ix2 (0 : Fin 1) q) + Cert.Spec.eps)
          * gamma (ix2 (0 : Fin 1) q) + beta (ix2 (0 : Fin 1) q)) (Ideal.ofBits .f32 0x00000000#32) := rfl

/-- The grid has ten points. -/
theorem gridSize2 : cfg2.N = 10 := rfl

/-- Row `p` of row-block `t`, column `q`, as an index of the 50000 × 128 arrays. -/
abbrev rowAt2 (t : Fin cfg2.N) (p : Fin 5000) (q : Fin 128) : S50000x128.Idx :=
  ix2 (⟨t.val * 5000 + p.val, by have ht : t.val < 10 := t.isLt; have hp := p.isLt; omega⟩ : Fin 50000) q

/-- The printed index maps, decided once over the ten grid points: the two row-blocked inputs move with the output
    (block `t` of rows, the one block of columns); the four 1 × 128 rows stay at their one block. -/
theorem blockIndex2 : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The specification's function of the six arrays as the region finds them. -/
abbrev whole2 (c : Dev nD) : Cert.Spec.Arr2 50000 128 :=
  Cert.Spec.normRelu (V c main_v1) (V c main_v25) (V c main_v26) (V c main_v27) (V c main_v28) (V c main_v29)

/-- WHAT POINT `t` WRITES BACK is block `t` of that function of the whole arrays. -/
theorem flushed_eq2 (c : Dev nD) (t : Fin cfg2.N) :
    (Gen.dat2 (F := Ideal) V c).flushed 6 t = ((cfg2.win 6).blk t).view.read (Elt Ideal) (whole2 V c) := by
  show (cfg2.win 6).cut (grid2.coords t) ((Gen.dat2 V c).after 6 t) = _
  rw [Gen.after2_6]
  unfold Gen.out2_6
  rw [View.canon_unit_zero zeroOffsets2]
  simp only [View.ld_unit_zero (S := S5000x128) zeroOffsets2, View.ld_unit_zero (S := S1x128) zeroOffsets2]
  obtain ⟨o0, o1, a0, a1, b0, b1, g0, g1, s0, s1, m0, m1, v0, v1⟩ := blockIndex2 t
  funext j
  obtain ⟨p, q, rfl⟩ : ∃ (p : Fin 5000) (q : Fin 128), j = ix2 p q := ⟨j 0, j 1, eq_ix2 j⟩
  -- each block read where the output's rectangle says
  have eo : ((cfg2.win 6).blk t).view.emb (ix2 p q) = rowAt2 t p q := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  have r0 : Gen.iblk2 V c 0 t (ix2 p q) = V c main_v1 (rowAt2 t p q) := by
    show V c main_v1 (((cfg2.win 0).blk t).view.emb (ix2 p q)) = V c main_v1 (rowAt2 t p q)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * q.val = q.val; omega
  have r1 : Gen.iblk2 V c 1 t (ix2 p q) = V c main_v25 (rowAt2 t p q) := by
    show V c main_v25 (((cfg2.win 1).blk t).view.emb (ix2 p q)) = V c main_v25 (rowAt2 t p q)
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * q.val = q.val; omega
  have r2 : Gen.iblk2 V c 2 t (ix2 (0 : Fin 1) q) = V c main_v26 (ix2 (0 : Fin 1) q) := by
    show V c main_v26 (((cfg2.win 2).blk t).view.emb (ix2 (0 : Fin 1) q)) = V c main_v26 (ix2 (0 : Fin 1) q)
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  have r3 : Gen.iblk2 V c 3 t (ix2 (0 : Fin 1) q) = V c main_v27 (ix2 (0 : Fin 1) q) := by
    show V c main_v27 (((cfg2.win 3).blk t).view.emb (ix2 (0 : Fin 1) q)) = V c main_v27 (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  have r4 : Gen.iblk2 V c 4 t (ix2 (0 : Fin 1) q) = V c main_v28 (ix2 (0 : Fin 1) q) := by
    show V c main_v28 (((cfg2.win 4).blk t).view.emb (ix2 (0 : Fin 1) q)) = V c main_v28 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  have r5 : Gen.iblk2 V c 5 t (ix2 (0 : Fin 1) q) = V c main_v29 (ix2 (0 : Fin 1) q) := by
    show V c main_v29 (((cfg2.win 5).blk t).view.emb (ix2 (0 : Fin 1) q)) = V c main_v29 (ix2 (0 : Fin 1) q)
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * q.val = q.val; omega
  refine (bnRelu_apply _ _ _ _ _ _ p q).trans ?_
  show Cert.Spec.normRelu _ _ _ _ _ _ (ix2 p q)
      = Cert.Spec.normRelu (V c main_v1) (V c main_v25) (V c main_v26) (V c main_v27) (V c main_v28) (V c main_v29)
          (((cfg2.win 6).blk t).view.emb (ix2 p q))
  rw [eo, normRelu_ix2, normRelu_ix2, r0, r1, r2, r3, r4, r5]

/-- An index of the array is in point `t`'s block iff each coordinate is in the block's range on its axis. -/
theorem mem_block2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v30).slice (win2_6.rect t)).set ↔ _
  rw [View.set_slice_whole, Rect.mem_set_unit]
  exact Iff.rfl

/-- THE COVER: row `r` is in the block of point `r / 5000`, and every point writes its block back. -/
theorem cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  let t : Fin cfg2.N := ⟨(i 0).val / 5000, by show (i 0).val / 5000 < 10; omega⟩
  have htv : t.val = (i 0).val / 5000 := rfl
  obtain ⟨o0, o1, -⟩ := blockIndex2 t
  refine ⟨t, Gen.flush2_6 t, ?_⟩
  rw [mem_block2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- THE ARRAY after the pipeline is the specification's function of the six arrays as the region finds them. -/
theorem final2 (c : Dev nD) : (Gen.dat2 (F := Ideal) V c).arrAt 6 cfg2.N
    = Cert.Spec.normRelu (V c main_v1) (V c main_v25) (V c main_v26) (V c main_v27) (V c main_v28) (V c main_v29) :=
  (Gen.dat2 (F := Ideal) V c).arrAt_eq_of_cover 6 (whole2 V c) (fun t _ => flushed_eq2 V c t) cover2

end Cert.KernelIdeal.RegionValue
end
-- ==== Proof.RefRun.lean ====
import proofs.«166731_j47974784696372_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-- @main's statements in order, each call replaced by its callee's operations over that call's buffer record (the nested call inside the gather helper likewise): ninety-three operations. -/
abbrev ops : List (HloOp τ sig (Elt F)) :=
  [ StableHlo.binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.binary main_arg1 main_arg4 main_v4 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg5 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S800000x128 ![0, 1] bcast_S1x128_S800000x128_0_1 : (⟨S1x128, .f32⟩ : BufTy).Contents (Elt F) → (⟨S800000x128, .f32⟩ : BufTy).Contents (Elt F)),
    StableHlo.binary main_v4 main_v6 main_v7 (addf : (⟨S800000x128, .f32⟩ : BufTy).Contents (Elt F) → (⟨S800000x128, .f32⟩ : BufTy).Contents (Elt F) → (⟨S800000x128, .f32⟩ : BufTy).Contents (Elt F)),
    StableHlo.unary main_v7 main_v8 (Host.negf : (⟨S800000x128, .f32⟩ : BufTy).Contents (Elt F) → (⟨S800000x128, .f32⟩ : BufTy).Contents (Elt F)),
    StableHlo.unary main_v8 main_v9 (Host.exp : (⟨S800000x128, .f32⟩ : BufTy).Contents (Elt F) → (⟨S800000x128, .f32⟩ : BufTy).Contents (Elt F)),
    StableHlo.nullary main_cst (constant S_ .f32 0x3F800000#32),
    StableHlo.unary main_cst main_v10 (broadcastInDim S800000x128 ![] bcast_S_S800000x128 : (⟨S_, .f32⟩ : BufTy).Contents (Elt F) → (⟨S800000x128, .f32⟩ : BufTy).Contents (Elt F)),
    StableHlo.binary main_v10 main_v9 main_v11 (addf : (⟨S800000x128, .f32⟩ : BufTy).Contents (Elt F) → (⟨S800000x128, .f32⟩ : BufTy).Contents (Elt F) → (⟨S800000x128, .f32⟩ : BufTy).Contents (Elt F)),
    StableHlo.nullary main_cst_0 (constant S_ .f32 0x3F800000#32),
    StableHlo.unary main_cst_0 main_v12 (broadcastInDim S800000x128 ![] bcast_S_S800000x128 : (⟨S_, .f32⟩ : BufTy).Contents (Elt F) → (⟨S800000x128, .f32⟩ : BufTy).Contents (Elt F)),
    StableHlo.binary main_v12 main_v11 main_v13 (Host.divf : (⟨S800000x128, .f32⟩ : BufTy).Contents (Elt F) → (⟨S800000x128, .f32⟩ : BufTy).Contents (Elt F) → (⟨S800000x128, .f32⟩ : BufTy).Contents (Elt F)),
    StableHlo.binary main_arg1 main_arg6 main_v14 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg7 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S800000x128 ![0, 1] bcast_S1x128_S800000x128_0_1 : (⟨S1x128, .f32⟩ : BufTy).Contents (Elt F) → (⟨S800000x128, .f32⟩ : BufTy).Contents (Elt F)),
    StableHlo.binary main_v14 main_v16 main_v17 (addf : (⟨S800000x128, .f32⟩ : BufTy).Contents (Elt F) → (⟨S800000x128, .f32⟩ : BufTy).Contents (Elt F) → (⟨S800000x128, .f32⟩ : BufTy).Contents (Elt F)),
    StableHlo.unary main_arg12 main_v18 ((extractStridedSlice S800000x1 ![0, 1] · slices_S800000x2_S800000x1_0_1) : (⟨S800000x2, .i32⟩ : BufTy).Contents (Elt F) → (⟨S800000x1, .i32⟩ : BufTy).Contents (Elt F)),
    StableHlo.reshape main_v18 main_v19 rfl shapeCasts_S800000x1_S800000,
    StableHlo.TRef.nullary main_call0.c (constantI S_ 32 0#32),
    StableHlo.TRef.unary main_call0.c main_call0.v0 (broadcastInDim S800000 ![] bcast_S_S800000),
    StableHlo.TRef.binary (TRef.of main_v19 : TRef sig ⟨S800000, .i32⟩) main_call0.v0 main_call0.v1 (cmpi .slt),
    StableHlo.TRef.nullary main_call0.c_0 (constantI S_ 32 50000#32),
    StableHlo.TRef.unary main_call0.c_0 main_call0.v2 (broadcastInDim S800000 ![] bcast_S_S800000),
    StableHlo.TRef.binary (TRef.of main_v19 : TRef sig ⟨S800000, .i32⟩) main_call0.v2 main_call0.v3 addi,
    StableHlo.TRef.ternary main_call0.v1 main_call0.v3 (TRef.of main_v19 : TRef sig ⟨S800000, .i32⟩) main_call0.call0.v0 select,
    StableHlo.TRef.unary main_call0.call0.v0 main_call0.v5 (broadcastInDim S800000x1 ![0] bcast_S800000_S800000x1_0),
    StableHlo.TRef.nullary main_call0.c_1 (constantI S1 32 49999#32),
    StableHlo.TRef.nullary main_call0.c_2 (constantI S_ 32 0#32),
    StableHlo.TRef.unary main_call0.c_2 main_call0.v6 (broadcastInDim S800000x1 ![] bcast_S_S800000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S800000x1 ![0, 1] bcast_S1x1_S800000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S800000x1_S800000_d1 h_S_),
    StableHlo.TRef.binary (TRef.of main_v3 : TRef sig ⟨S50000x128, .f32⟩) main_call0.v5 main_call0.v13 (fun x i => Host.gather gather_S50000x128_S800000x1_S800000x128_1_0_n_n_0_1_1128 x i),
    StableHlo.TRef.unary main_call0.v12 main_call0.v14 (broadcastInDim S800000x128 ![0] bcast_S800000_S800000x128_0),
    StableHlo.TRef.nullary main_call0.cst (constant S_ .f32 0x7FC00000#32),
    StableHlo.TRef.unary main_call0.cst main_call0.v15 (broadcastInDim S800000x128 ![] bcast_S_S800000x128),
    StableHlo.TRef.ternary main_call0.v14 main_call0.v13 main_call0.v15 main_call0.v16 select,
    StableHlo.binary main_v13 main_v17 main_v21 (mulf : (⟨S800000x128, .f32⟩ : BufTy).Contents (Elt F) → (⟨S800000x128, .f32⟩ : BufTy).Contents (Elt F) → (⟨S800000x128, .f32⟩ : BufTy).Contents (Elt F)),
    StableHlo.binary main_v21 main_v20 main_v22 (mulf : (⟨S800000x128, .f32⟩ : BufTy).Contents (Elt F) → (⟨S800000x128, .f32⟩ : BufTy).Contents (Elt F) → (⟨S800000x128, .f32⟩ : BufTy).Contents (Elt F)),
    StableHlo.unary main_arg12 main_v23 ((extractStridedSlice S800000x1 ![0, 0] · slices_S800000x2_S800000x1_0_0) : (⟨S800000x2, .i32⟩ : BufTy).Contents (Elt F) → (⟨S800000x1, .i32⟩ : BufTy).Contents (Elt F)),
    StableHlo.reshape main_v23 main_v24 rfl shapeCasts_S800000x1_S800000,
    StableHlo.nullary main_cst_1 (constant S_ .f32 0x00000000#32),
    StableHlo.unary main_cst_1 main_v25 (broadcastInDim S50000x128 ![] bcast_S_S50000x128 : (⟨S_, .f32⟩ : BufTy).Contents (Elt F) → (⟨S50000x128, .f32⟩ : BufTy).Contents (Elt F)),
    StableHlo.unary main_v24 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v22 main_v27 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_2 (constant S_ .f32 0x3F800000#32),
    StableHlo.unary main_cst_2 main_v28 (broadcastInDim S800000 ![] bcast_S_S800000 : (⟨S_, .f32⟩ : BufTy).Contents (Elt F) → (⟨S800000, .f32⟩ : BufTy).Contents (Elt F)),
    StableHlo.nullary main_cst_3 (constant S_ .f32 0x00000000#32),
    StableHlo.unary main_cst_3 main_v29 (broadcastInDim S50000 ![] bcast_S_S50000 : (⟨S_, .f32⟩ : BufTy).Contents (Elt F) → (⟨S50000, .f32⟩ : BufTy).Contents (Elt F)),
    StableHlo.unary main_v24 main_v30 (broadcastInDim S800000x1 ![0] bcast_S800000_S800000x1_0 : (⟨S800000, .i32⟩ : BufTy).Contents (Elt F) → (⟨S800000x1, .i32⟩ : BufTy).Contents (Elt F)),
    StableHlo.ternary main_v29 main_v30 main_v28 main_v31 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.unary main_v31 main_v32 (broadcastInDim S50000x1 ![0] bcast_S50000_S50000x1_0 : (⟨S50000, .f32⟩ : BufTy).Contents (Elt F) → (⟨S50000x1, .f32⟩ : BufTy).Contents (Elt F)),
    StableHlo.nullary main_cst_4 (constant S_ .f32 0x00000000#32),
    StableHlo.unary main_cst_4 main_v33 (broadcastInDim S50000x1 ![] bcast_S_S50000x1 : (⟨S_, .f32⟩ : BufTy).Contents (Elt F) → (⟨S50000x1, .f32⟩ : BufTy).Contents (Elt F)),
    StableHlo.binary main_v32 main_v33 main_v34 (cmpf .ogt : (⟨S50000x1, .f32⟩ : BufTy).Contents (Elt F) → (⟨S50000x1, .f32⟩ : BufTy).Contents (Elt F) → (⟨S50000x1, .i1⟩ : BufTy).Contents (Elt F)),
    StableHlo.nullary main_cst_5 (constant S_ .f32 0x3F800000#32),
    StableHlo.unary main_cst_5 main_v35 (broadcastInDim S50000x1 ![] bcast_S_S50000x1 : (⟨S_, .f32⟩ : BufTy).Contents (Elt F) → (⟨S50000x1, .f32⟩ : BufTy).Contents (Elt F)),
    StableHlo.binary main_v32 main_v35 main_v36 (maximumf : (⟨S50000x1, .f32⟩ : BufTy).Contents (Elt F) → (⟨S50000x1, .f32⟩ : BufTy).Contents (Elt F) → (⟨S50000x1, .f32⟩ : BufTy).Contents (Elt F)),
    StableHlo.unary main_v36 main_v37 (broadcastInDim S50000x128 ![0, 1] bcast_S50000x1_S50000x128_0_1 : (⟨S50000x1, .f32⟩ : BufTy).Contents (Elt F) → (⟨S50000x128, .f32⟩ : BufTy).Contents (Elt F)),
    StableHlo.binary main_v27 main_v37 main_v38 (Host.divf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.TRef.unary (TRef.of main_cst_6 : TRef sig ⟨S_, .f32⟩) main_call1.v0 id,
    StableHlo.TRef.unary (TRef.of main_v34 : TRef sig ⟨S50000x1, .i1⟩) main_call1.v1 (broadcastInDim S50000x128 ![0, 1] bcast_S50000x1_S50000x128_0_1),
    StableHlo.TRef.unary main_call1.v0 main_call1.v2 (broadcastInDim S50000x128 ![] bcast_S_S50000x128),
    StableHlo.TRef.ternary main_call1.v1 (TRef.of main_v38 : TRef sig ⟨S50000x128, .f32⟩) main_call1.v2 main_call1.v3 select,
    StableHlo.binary main_v3 main_v39 main_v40 (addf : (⟨S50000x128, .f32⟩ : BufTy).Contents (Elt F) → (⟨S50000x128, .f32⟩ : BufTy).Contents (Elt F) → (⟨S50000x128, .f32⟩ : BufTy).Contents (Elt F)),
    StableHlo.unary main_arg10 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3A83126F#32),
    StableHlo.unary main_cst_7 main_v44 (broadcastInDim S128 ![] bcast_S_S128 : (⟨S_, .f32⟩ : BufTy).Contents (Elt F) → (⟨S128, .f32⟩ : BufTy).Contents (Elt F)),
    StableHlo.binary main_arg11 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v48 main_v49 (mulf : (⟨S50000x128, .f32⟩ : BufTy).Contents (Elt F) → (⟨S50000x128, .f32⟩ : BufTy).Contents (Elt F) → (⟨S50000x128, .f32⟩ : BufTy).Contents (Elt F)),
    StableHlo.unary main_arg8 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v51 main_v52 (mulf : (⟨S50000x128, .f32⟩ : BufTy).Contents (Elt F) → (⟨S50000x128, .f32⟩ : BufTy).Contents (Elt F) → (⟨S50000x128, .f32⟩ : BufTy).Contents (Elt F)),
    StableHlo.unary main_arg9 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (TRef.of main_v55 : TRef sig ⟨S50000x128, .f32⟩) main_call2.v0 main_call2.v1 maximumf ]

/-- The first window's operations (statements 1–60, the two calls in it inlined). -/
abbrev ops0 : List (HloOp τ sig (Elt F)) := (ops (F := F)).take 85
/-- The second window's operations (statements 61–67, the call in it inlined). -/
abbrev ops1 : List (HloOp τ sig (Elt F)) := (ops (F := F)).drop 85

set_option maxRecDepth 100000 in
set_option maxHeartbeats 4000000 in
/-- The first window is its straight line: the three functions' definitions unfolded at their calls and the records at their fields,
    both sides are one chain of `hlo` steps once sequencing is reassociated. -/
theorem main_part0_eq (c : Dev nD) : main_part0 (F := F) c = seq ops0 := by
  simp only [main_part0, fn_take.body, fn_where.body, fn_where_0.body, seq, bind_assoc, pure_bind]
  rfl

set_option maxRecDepth 100000 in
/-- The second window likewise. -/
theorem main_part1_eq (c : Dev nD) : main_part1 (F := F) c = seq ops1 := by
  simp only [main_part1, fn_relu.body, seq, bind_assoc, pure_bind]
  rfl

/-- @main is the two windows in order, and a line run after a line is their concatenation run as one. -/
theorem main_eq (c : Dev nD) : main (F := F) c = seq ops := by
  have h : (ops : List (HloOp τ sig (Elt F))) = ops0 ++ ops1 := (List.take_append_drop 85 _).symm
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., unary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., binary_bufs_sub .., unary_bufs_sub ..,
    reshape_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., binary_bufs_sub ..,
    unary_bufs_sub .., binary_bufs_sub .., nullary_bufs_sub .., unary_bufs_sub .., unary_bufs_sub .., unary_bufs_sub ..,
    ternary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

/-- On the one device, for any float values, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The stages

@main's statements composed stage by stage, each definition the printed operations of one stretch applied to one another
(same operations, records, literals and argument order), so that the result buffer's fold is `refOut` of the thirteen arguments. -/

/-- Statements %0–%3: the node features times the weight (contracting the feature axis), plus the bias broadcast along the rows. -/
def nodeHidden (x : FVec F S50000x128 .f32) (W : FVec F S128x128 .f32) (b : FVec F S128 .f32) : FVec F S50000x128 .f32 :=
  addf (Host.dotGeneral dot_S50000x128_S128x128_S50000x128_1_0_0_1_n_n none x W)
    (broadcastInDim S50000x128 ![0, 1] bcast_S1x128_S50000x128_0_1 (broadcastInDim S1x128 ![1] bcast_S128_S1x128_1 b))

/-- Statements %4–%7 (and %14–%17 at the other weight and bias): the edge features times a weight, plus its bias broadcast along the rows. -/
def edgeLin (e : FVec F S800000x128 .f32) (W : FVec F S128x128 .f32) (b : FVec F S128 .f32) : FVec F S800000x128 .f32 :=
  addf (Host.dotGeneral dot_S800000x128_S128x128_S800000x128_1_0_0_1_n_n none e W)
    (broadcastInDim S800000x128 ![0, 1] bcast_S1x128_S800000x128_0_1 (broadcastInDim S1x128 ![1] bcast_S128_S1x128_1 b))

/-- Statements %8–%13: the logistic function as printed, `1 / (1 + exp (-z))`, each `1` its own broadcast constant. -/
def sigm (z : FVec F S800000x128 .f32) : FVec F S800000x128 .f32 :=
  Host.divf (broadcastInDim S800000x128 ![] bcast_S_S800000x128 (constant S_ .f32 0x3F800000#32))
    (addf (broadcastInDim S800000x128 ![] bcast_S_S800000x128 (constant S_ .f32 0x3F800000#32)) (Host.exp (Host.negf z)))

/-- Statements %18, %19: column 1 of the index table (the edge's source node), as a rank-one tensor. -/
def srcIdx (idx : IVec S800000x2 32) : IVec S800000 32 :=
  shapeCast S800000 (extractStridedSlice S800000x1 ![0, 1] idx slices_S800000x2_S800000x1_0_1) shapeCasts_S800000x1_S800000

/-- Statements %23, %24: column 0 of the index table (the edge's destination node), as a rank-one tensor. -/
def dstIdx (idx : IVec S800000x2 32) : IVec S800000 32 :=
  shapeCast S800000 (extractStridedSlice S800000x1 ![0, 0] idx slices_S800000x2_S800000x1_0_0) shapeCasts_S800000x1_S800000

/-- The gather helper's %c–%5: a negative index has the row count 50000 added (the select of the nested helper), then the
    indices as a one-column table. -/
def wrapIdx (j : IVec S800000 32) : IVec S800000x1 32 :=
  broadcastInDim S800000x1 ![0] bcast_S800000_S800000x1_0
    (select (cmpi .slt j (broadcastInDim S800000 ![] bcast_S_S800000 (constantI S_ 32 0#32)))
      (addi j (broadcastInDim S800000 ![] bcast_S_S800000 (constantI S_ 32 50000#32))) j)

/-- The gather helper's %c_1–%12: per edge, whether the wrapped index lies in `0 … 49999` (the conjunction reduced along the
    one column from `true`). -/
def inRange (p : IVec S800000x1 32) : IVec S800000 1 :=
  Host.reduce IntOp.andi
    (andi (cmpi .sge p (broadcastInDim S800000x1 ![] bcast_S_S800000x1 (constantI S_ 32 0#32)))
      (cmpi .sle p (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Statements %18–%20 with the gather helper inlined: per edge the source node's row of `h`, or the quiet NaN
    `0x7FC00000` throughout the row where the index is out of range. -/
def takeRows (h : FVec F S50000x128 .f32) (idx : IVec S800000x2 32) : FVec F S800000x128 .f32 :=
  select (broadcastInDim S800000x128 ![0] bcast_S800000_S800000x128_0 (inRange (wrapIdx (srcIdx idx))))
    (Host.gather gather_S50000x128_S800000x1_S800000x128_1_0_n_n_0_1_1128 h (wrapIdx (srcIdx idx)))
    (broadcastInDim S800000x128 ![] bcast_S_S800000x128 (constant S_ .f32 0x7FC00000#32))

/-- Statements %25–%27: the messages added into their destination node's row, from zero. -/
def segSum (msg : FVec F S800000x128 .f32) (idx : IVec S800000x2 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstIdx idx)) msg

/-- Statements %28–%32: a one per edge added into its destination node, from zero — the node's in-degree — as a column. -/
def segCount (idx : IVec S800000x2 32) : FVec F S50000x1 .f32 :=
  broadcastInDim S50000x1 ![0] bcast_S50000_S50000x1_0
    (Host.scatterAdd scatter_S50000_S800000x1_S800000_n_0_0_1
      (broadcastInDim S50000 ![] bcast_S_S50000 (constant S_ .f32 0x00000000#32))
      (broadcastInDim S800000x1 ![0] bcast_S800000_S800000x1_0 (dstIdx idx))
      (broadcastInDim S800000 ![] bcast_S_S800000 (constant S_ .f32 0x3F800000#32)))

/-- Statements %23–%39 with the select helper inlined: the sum over `max (count, 1)` where the count is positive, else zero
    (the helper's conversion of the scalar zero to its own type is the identity, kept as printed). -/
def segMean (msg : FVec F S800000x128 .f32) (idx : IVec S800000x2 32) : FVec F S50000x128 .f32 :=
  select
    (broadcastInDim S50000x128 ![0, 1] bcast_S50000x1_S50000x128_0_1
      (cmpf .ogt (segCount (F := F) idx) (broadcastInDim S50000x1 ![] bcast_S_S50000x1 (constant S_ .f32 0x00000000#32))))
    (Host.divf (segSum msg idx)
      (broadcastInDim S50000x128 ![0, 1] bcast_S50000x1_S50000x128_0_1
        (maximumf (segCount (F := F) idx) (broadcastInDim S50000x1 ![] bcast_S_S50000x1 (constant S_ .f32 0x3F800000#32)))))
    (broadcastInDim S50000x128 ![] bcast_S_S50000x128 (id (constant S_ .f32 0x00000000#32)))

/-- Statements %40–%56 with the rectifier helper inlined: `max (((h + agg) - mean) * rsqrt (var + 0x3A83126F) * gamma + beta, 0)`,
    each per-feature vector broadcast along the rows. -/
def bnRelu (h agg : FVec F S50000x128 .f32) (gamma beta mean var : FVec F S128 .f32) : FVec F S50000x128 .f32 :=
  maximumf
    (addf
      (mulf
        (mulf
          (subf (addf h agg)
            (broadcastInDim S50000x128 ![0, 1] bcast_S1x128_S50000x128_0_1 (broadcastInDim S1x128 ![1] bcast_S128_S1x128_1 mean)))
          (broadcastInDim S50000x128 ![0, 1] bcast_S1x128_S50000x128_0_1 (broadcastInDim S1x128 ![1] bcast_S128_S1x128_1
            (Host.rsqrt (addf var (broadcastInDim S128 ![] bcast_S_S128 (constant S_ .f32 0x3A83126F#32)))))))
        (broadcastInDim S50000x128 ![0, 1] bcast_S1x128_S50000x128_0_1 (broadcastInDim S1x128 ![1] bcast_S128_S1x128_1 gamma)))
      (broadcastInDim S50000x128 ![0, 1] bcast_S1x128_S50000x128_0_1 (broadcastInDim S1x128 ![1] bcast_S128_S1x128_1 beta)))
    (broadcastInDim S50000x128 ![] bcast_S_S50000x128 (constant S_ .f32 0x00000000#32))

/-- What @main computes from its thirteen arguments' contents. -/
def refOut (a0 : FVec F S50000x128 .f32) (a1 : FVec F S800000x128 .f32) (a2 : FVec F S128x128 .f32) (a3 : FVec F S128 .f32)
    (a4 : FVec F S128x128 .f32) (a5 : FVec F S128 .f32) (a6 : FVec F S128x128 .f32) (a7 : FVec F S128 .f32)
    (a8 a9 a10 a11 : FVec F S128 .f32) (a12 : IVec S800000x2 32) : FVec F S50000x128 .f32 :=
  bnRelu (nodeHidden a0 a2 a3)
    (segMean (mulf (mulf (sigm (edgeLin a1 a4 a5)) (edgeLin a1 a6 a7)) (takeRows (nodeHidden a0 a2 a3) a12)) a12)
    a8 a9 a10 a11

end Cert.ReferenceIdeal.RefRun

end
-- ==== Proof.RefRunPieces.lean ====
/- The fold of the reference's straight line read stretch by stretch: the ninety-three operations of `RefRun.ops` cut into six
   consecutive literal lists at the stage boundaries, what each stretch leaves at its result buffer as the stage's definition of the
   contents it finds (at an arbitrary valuation), and that a buffer a stretch does not write keeps its contents. -/
import proofs.«166731_j47974784696372_1_alg».proof.Proof.RefRun

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-! ## The result buffer's fold, stage by stage

The line is cut into six consecutive stretches; after each, the stretch's result buffer holds its stage of the contents before
the stretch (each operation's result at its own buffer is its function's value, at any other buffer what was there), and a
buffer no operation of a stretch writes keeps its contents. -/

/-- The fold over a concatenation is the fold over the second line from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- An operation whose one written buffer is among a list of references writes inside that list. -/
theorem wsub {Wr : List (Ref sig .tc)} {y : Ref sig .tc} (h : y ∈ Wr) :
    ({Proc.devRef .tc y} : Finset (DevRef τ sig)) ⊆ (Wr.map (Proc.devRef (τ := τ) .tc)).toFinset :=
  Finset.singleton_subset_iff.mpr (List.mem_toFinset.mpr (List.mem_map_of_mem h))

/-- Statements %0–%3. -/
abbrev opsS1 : List (HloOp τ sig (Elt F)) :=
  [ StableHlo.binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)) ]
/-- The references that stretch writes, in order. -/
abbrev writtenS1 : List (Ref sig .tc) :=
  [main_v0, main_v1, main_v2, main_v3]
theorem wrS1 : (opsS1 : List (HloOp τ sig (Elt F))).Forall fun op => op.writes ⊆ ((writtenS1).map (Proc.devRef (τ := τ) .tc)).toFinset :=
  ⟨wsub (y := main_v0) (by decide), wsub (y := main_v1) (by decide), wsub (y := main_v2) (by decide), wsub (y := main_v3) (by decide)⟩
/-- A buffer that stretch does not write keeps its contents. -/
theorem frameS1 (W : Valuation τ sig (Elt F)) {r : Ref sig .tc} (hr : r ∉ writtenS1) :
    after opsS1 W (r : DevRef τ sig) = W (r : DevRef τ sig) := after_of_writes_sub opsS1 W wrS1 hr

/-- Statements %4–%17. -/
abbrev opsS2 : List (HloOp τ sig (Elt F)) :=
  [ StableHlo.binary main_arg1 main_arg4 main_v4 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg5 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S800000x128 ![0, 1] bcast_S1x128_S800000x128_0_1 : (⟨S1x128, .f32⟩ : BufTy).Contents (Elt F) → (⟨S800000x128, .f32⟩ : BufTy).Contents (Elt F)),
    StableHlo.binary main_v4 main_v6 main_v7 (addf : (⟨S800000x128, .f32⟩ : BufTy).Contents (Elt F) → (⟨S800000x128, .f32⟩ : BufTy).Contents (Elt F) → (⟨S800000x128, .f32⟩ : BufTy).Contents (Elt F)),
    StableHlo.unary main_v7 main_v8 (Host.negf : (⟨S800000x128, .f32⟩ : BufTy).Contents (Elt F) → (⟨S800000x128, .f32⟩ : BufTy).Contents (Elt F)),
    StableHlo.unary main_v8 main_v9 (Host.exp : (⟨S800000x128, .f32⟩ : BufTy).Contents (Elt F) → (⟨S800000x128, .f32⟩ : BufTy).Contents (Elt F)),
    StableHlo.nullary main_cst (constant S_ .f32 0x3F800000#32),
    StableHlo.unary main_cst main_v10 (broadcastInDim S800000x128 ![] bcast_S_S800000x128 : (⟨S_, .f32⟩ : BufTy).Contents (Elt F) → (⟨S800000x128, .f32⟩ : BufTy).Contents (Elt F)),
    StableHlo.binary main_v10 main_v9 main_v11 (addf : (⟨S800000x128, .f32⟩ : BufTy).Contents (Elt F) → (⟨S800000x128, .f32⟩ : BufTy).Contents (Elt F) → (⟨S800000x128, .f32⟩ : BufTy).Contents (Elt F)),
    StableHlo.nullary main_cst_0 (constant S_ .f32 0x3F800000#32),
    StableHlo.unary main_cst_0 main_v12 (broadcastInDim S800000x128 ![] bcast_S_S800000x128 : (⟨S_, .f32⟩ : BufTy).Contents (Elt F) → (⟨S800000x128, .f32⟩ : BufTy).Contents (Elt F)),
    StableHlo.binary main_v12 main_v11 main_v13 (Host.divf : (⟨S800000x128, .f32⟩ : BufTy).Contents (Elt F) → (⟨S800000x128, .f32⟩ : BufTy).Contents (Elt F) → (⟨S800000x128, .f32⟩ : BufTy).Contents (Elt F)),
    StableHlo.binary main_arg1 main_arg6 main_v14 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg7 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S800000x128 ![0, 1] bcast_S1x128_S800000x128_0_1 : (⟨S1x128, .f32⟩ : BufTy).Contents (Elt F) → (⟨S800000x128, .f32⟩ : BufTy).Contents (Elt F)),
    StableHlo.binary main_v14 main_v16 main_v17 (addf : (⟨S800000x128, .f32⟩ : BufTy).Contents (Elt F) → (⟨S800000x128, .f32⟩ : BufTy).Contents (Elt F) → (⟨S800000x128, .f32⟩ : BufTy).Contents (Elt F)) ]
/-- The references that stretch writes, in order. -/
abbrev writtenS2 : List (Ref sig .tc) :=
  [main_v4, main_v5, main_v6, main_v7, main_v8, main_v9, main_cst, main_v10, main_v11, main_cst_0, main_v12, main_v13, main_v14, main_v15, main_v16, main_v17]
theorem wrS2 : (opsS2 : List (HloOp τ sig (Elt F))).Forall fun op => op.writes ⊆ ((writtenS2).map (Proc.devRef (τ := τ) .tc)).toFinset :=
  ⟨wsub (y := main_v4) (by decide), wsub (y := main_v5) (by decide), wsub (y := main_v6) (by decide), wsub (y := main_v7) (by decide),
    wsub (y := main_v8) (by decide), wsub (y := main_v9) (by decide), wsub (y := main_cst) (by decide), wsub (y := main_v10) (by decide),
    wsub (y := main_v11) (by decide), wsub (y := main_cst_0) (by decide), wsub (y := main_v12) (by decide), wsub (y := main_v13) (by decide),
    wsub (y := main_v14) (by decide), wsub (y := main_v15) (by decide), wsub (y := main_v16) (by decide), wsub (y := main_v17) (by decide)⟩
/-- A buffer that stretch does not write keeps its contents. -/
theorem frameS2 (W : Valuation τ sig (Elt F)) {r : Ref sig .tc} (hr : r ∉ writtenS2) :
    after opsS2 W (r : DevRef τ sig) = W (r : DevRef τ sig) := after_of_writes_sub opsS2 W wrS2 hr

/-- Statements %18–%20, the gather helper inlined. -/
abbrev opsS3 : List (HloOp τ sig (Elt F)) :=
  [ StableHlo.unary main_arg12 main_v18 ((extractStridedSlice S800000x1 ![0, 1] · slices_S800000x2_S800000x1_0_1) : (⟨S800000x2, .i32⟩ : BufTy).Contents (Elt F) → (⟨S800000x1, .i32⟩ : BufTy).Contents (Elt F)),
    StableHlo.reshape main_v18 main_v19 rfl shapeCasts_S800000x1_S800000,
    StableHlo.TRef.nullary main_call0.c (constantI S_ 32 0#32),
    StableHlo.TRef.unary main_call0.c main_call0.v0 (broadcastInDim S800000 ![] bcast_S_S800000),
    StableHlo.TRef.binary (TRef.of main_v19 : TRef sig ⟨S800000, .i32⟩) main_call0.v0 main_call0.v1 (cmpi .slt),
    StableHlo.TRef.nullary main_call0.c_0 (constantI S_ 32 50000#32),
    StableHlo.TRef.unary main_call0.c_0 main_call0.v2 (broadcastInDim S800000 ![] bcast_S_S800000),
    StableHlo.TRef.binary (TRef.of main_v19 : TRef sig ⟨S800000, .i32⟩) main_call0.v2 main_call0.v3 addi,
    StableHlo.TRef.ternary main_call0.v1 main_call0.v3 (TRef.of main_v19 : TRef sig ⟨S800000, .i32⟩) main_call0.call0.v0 select,
    StableHlo.TRef.unary main_call0.call0.v0 main_call0.v5 (broadcastInDim S800000x1 ![0] bcast_S800000_S800000x1_0),
    StableHlo.TRef.nullary main_call0.c_1 (constantI S1 32 49999#32),
    StableHlo.TRef.nullary main_call0.c_2 (constantI S_ 32 0#32),
    StableHlo.TRef.unary main_call0.c_2 main_call0.v6 (broadcastInDim S800000x1 ![] bcast_S_S800000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S800000x1 ![0, 1] bcast_S1x1_S800000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S800000x1_S800000_d1 h_S_),
    StableHlo.TRef.binary (TRef.of main_v3 : TRef sig ⟨S50000x128, .f32⟩) main_call0.v5 main_call0.v13 (fun x i => Host.gather gather_S50000x128_S800000x1_S800000x128_1_0_n_n_0_1_1128 x i),
    StableHlo.TRef.unary main_call0.v12 main_call0.v14 (broadcastInDim S800000x128 ![0] bcast_S800000_S800000x128_0),
    StableHlo.TRef.nullary main_call0.cst (constant S_ .f32 0x7FC00000#32),
    StableHlo.TRef.unary main_call0.cst main_call0.v15 (broadcastInDim S800000x128 ![] bcast_S_S800000x128),
    StableHlo.TRef.ternary main_call0.v14 main_call0.v13 main_call0.v15 main_call0.v16 select ]
/-- The references that stretch writes, in order. -/
abbrev writtenS3 : List (Ref sig .tc) :=
  [main_v18, main_v19, main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]
theorem wrS3 : (opsS3 : List (HloOp τ sig (Elt F))).Forall fun op => op.writes ⊆ ((writtenS3).map (Proc.devRef (τ := τ) .tc)).toFinset :=
  ⟨wsub (y := main_v18) (by decide), wsub (y := main_v19) (by decide), wsub (y := main_call0.c.ref) (by decide), wsub (y := main_call0.v0.ref) (by decide),
    wsub (y := main_call0.v1.ref) (by decide), wsub (y := main_call0.c_0.ref) (by decide), wsub (y := main_call0.v2.ref) (by decide), wsub (y := main_call0.v3.ref) (by decide),
    wsub (y := main_call0.call0.v0.ref) (by decide), wsub (y := main_call0.v5.ref) (by decide), wsub (y := main_call0.c_1.ref) (by decide), wsub (y := main_call0.c_2.ref) (by decide),
    wsub (y := main_call0.v6.ref) (by decide), wsub (y := main_call0.v7.ref) (by decide), wsub (y := main_call0.v8.ref) (by decide), wsub (y := main_call0.v9.ref) (by decide),
    wsub (y := main_call0.v10.ref) (by decide), wsub (y := main_call0.v11.ref) (by decide), wsub (y := main_call0.c_3.ref) (by decide), wsub (y := main_call0.v12.ref) (by decide),
    wsub (y := main_call0.v13.ref) (by decide), wsub (y := main_call0.v14.ref) (by decide), wsub (y := main_call0.cst.ref) (by decide), wsub (y := main_call0.v15.ref) (by decide),
    wsub (y := main_call0.v16.ref) (by decide)⟩
/-- A buffer that stretch does not write keeps its contents. -/
theorem frameS3 (W : Valuation τ sig (Elt F)) {r : Ref sig .tc} (hr : r ∉ writtenS3) :
    after opsS3 W (r : DevRef τ sig) = W (r : DevRef τ sig) := after_of_writes_sub opsS3 W wrS3 hr

/-- Statements %21, %22. -/
abbrev opsS4 : List (HloOp τ sig (Elt F)) :=
  [ StableHlo.binary main_v13 main_v17 main_v21 (mulf : (⟨S800000x128, .f32⟩ : BufTy).Contents (Elt F) → (⟨S800000x128, .f32⟩ : BufTy).Contents (Elt F) → (⟨S800000x128, .f32⟩ : BufTy).Contents (Elt F)),
    StableHlo.binary main_v21 main_v20 main_v22 (mulf : (⟨S800000x128, .f32⟩ : BufTy).Contents (Elt F) → (⟨S800000x128, .f32⟩ : BufTy).Contents (Elt F) → (⟨S800000x128, .f32⟩ : BufTy).Contents (Elt F)) ]
/-- The references that stretch writes, in order. -/
abbrev writtenS4 : List (Ref sig .tc) :=
  [main_v21, main_v22]
theorem wrS4 : (opsS4 : List (HloOp τ sig (Elt F))).Forall fun op => op.writes ⊆ ((writtenS4).map (Proc.devRef (τ := τ) .tc)).toFinset :=
  ⟨wsub (y := main_v21) (by decide), wsub (y := main_v22) (by decide)⟩
/-- A buffer that stretch does not write keeps its contents. -/
theorem frameS4 (W : Valuation τ sig (Elt F)) {r : Ref sig .tc} (hr : r ∉ writtenS4) :
    after opsS4 W (r : DevRef τ sig) = W (r : DevRef τ sig) := after_of_writes_sub opsS4 W wrS4 hr

/-- Statements %23–%39, the select helper inlined. -/
abbrev opsS5 : List (HloOp τ sig (Elt F)) :=
  [ StableHlo.unary main_arg12 main_v23 ((extractStridedSlice S800000x1 ![0, 0] · slices_S800000x2_S800000x1_0_0) : (⟨S800000x2, .i32⟩ : BufTy).Contents (Elt F) → (⟨S800000x1, .i32⟩ : BufTy).Contents (Elt F)),
    StableHlo.reshape main_v23 main_v24 rfl shapeCasts_S800000x1_S800000,
    StableHlo.nullary main_cst_1 (constant S_ .f32 0x00000000#32),
    StableHlo.unary main_cst_1 main_v25 (broadcastInDim S50000x128 ![] bcast_S_S50000x128 : (⟨S_, .f32⟩ : BufTy).Contents (Elt F) → (⟨S50000x128, .f32⟩ : BufTy).Contents (Elt F)),
    StableHlo.unary main_v24 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v22 main_v27 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_2 (constant S_ .f32 0x3F800000#32),
    StableHlo.unary main_cst_2 main_v28 (broadcastInDim S800000 ![] bcast_S_S800000 : (⟨S_, .f32⟩ : BufTy).Contents (Elt F) → (⟨S800000, .f32⟩ : BufTy).Contents (Elt F)),
    StableHlo.nullary main_cst_3 (constant S_ .f32 0x00000000#32),
    StableHlo.unary main_cst_3 main_v29 (broadcastInDim S50000 ![] bcast_S_S50000 : (⟨S_, .f32⟩ : BufTy).Contents (Elt F) → (⟨S50000, .f32⟩ : BufTy).Contents (Elt F)),
    StableHlo.unary main_v24 main_v30 (broadcastInDim S800000x1 ![0] bcast_S800000_S800000x1_0 : (⟨S800000, .i32⟩ : BufTy).Contents (Elt F) → (⟨S800000x1, .i32⟩ : BufTy).Contents (Elt F)),
    StableHlo.ternary main_v29 main_v30 main_v28 main_v31 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.unary main_v31 main_v32 (broadcastInDim S50000x1 ![0] bcast_S50000_S50000x1_0 : (⟨S50000, .f32⟩ : BufTy).Contents (Elt F) → (⟨S50000x1, .f32⟩ : BufTy).Contents (Elt F)),
    StableHlo.nullary main_cst_4 (constant S_ .f32 0x00000000#32),
    StableHlo.unary main_cst_4 main_v33 (broadcastInDim S50000x1 ![] bcast_S_S50000x1 : (⟨S_, .f32⟩ : BufTy).Contents (Elt F) → (⟨S50000x1, .f32⟩ : BufTy).Contents (Elt F)),
    StableHlo.binary main_v32 main_v33 main_v34 (cmpf .ogt : (⟨S50000x1, .f32⟩ : BufTy).Contents (Elt F) → (⟨S50000x1, .f32⟩ : BufTy).Contents (Elt F) → (⟨S50000x1, .i1⟩ : BufTy).Contents (Elt F)),
    StableHlo.nullary main_cst_5 (constant S_ .f32 0x3F800000#32),
    StableHlo.unary main_cst_5 main_v35 (broadcastInDim S50000x1 ![] bcast_S_S50000x1 : (⟨S_, .f32⟩ : BufTy).Contents (Elt F) → (⟨S50000x1, .f32⟩ : BufTy).Contents (Elt F)),
    StableHlo.binary main_v32 main_v35 main_v36 (maximumf : (⟨S50000x1, .f32⟩ : BufTy).Contents (Elt F) → (⟨S50000x1, .f32⟩ : BufTy).Contents (Elt F) → (⟨S50000x1, .f32⟩ : BufTy).Contents (Elt F)),
    StableHlo.unary main_v36 main_v37 (broadcastInDim S50000x128 ![0, 1] bcast_S50000x1_S50000x128_0_1 : (⟨S50000x1, .f32⟩ : BufTy).Contents (Elt F) → (⟨S50000x128, .f32⟩ : BufTy).Contents (Elt F)),
    StableHlo.binary main_v27 main_v37 main_v38 (Host.divf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.TRef.unary (TRef.of main_cst_6 : TRef sig ⟨S_, .f32⟩) main_call1.v0 id,
    StableHlo.TRef.unary (TRef.of main_v34 : TRef sig ⟨S50000x1, .i1⟩) main_call1.v1 (broadcastInDim S50000x128 ![0, 1] bcast_S50000x1_S50000x128_0_1),
    StableHlo.TRef.unary main_call1.v0 main_call1.v2 (broadcastInDim S50000x128 ![] bcast_S_S50000x128),
    StableHlo.TRef.ternary main_call1.v1 (TRef.of main_v38 : TRef sig ⟨S50000x128, .f32⟩) main_call1.v2 main_call1.v3 select ]
/-- The references that stretch writes, in order. -/
abbrev writtenS5 : List (Ref sig .tc) :=
  [main_v23, main_v24, main_cst_1, main_v25, main_v26, main_v27, main_cst_2, main_v28, main_cst_3, main_v29, main_v30, main_v31, main_v32, main_cst_4, main_v33, main_v34, main_cst_5, main_v35, main_v36, main_v37, main_v38, main_cst_6, main_call1.v0.ref, main_call1.v1.ref, main_call1.v2.ref, main_call1.v3.ref]
theorem wrS5 : (opsS5 : List (HloOp τ sig (Elt F))).Forall fun op => op.writes ⊆ ((writtenS5).map (Proc.devRef (τ := τ) .tc)).toFinset :=
  ⟨wsub (y := main_v23) (by decide), wsub (y := main_v24) (by decide), wsub (y := main_cst_1) (by decide), wsub (y := main_v25) (by decide),
    wsub (y := main_v26) (by decide), wsub (y := main_v27) (by decide), wsub (y := main_cst_2) (by decide), wsub (y := main_v28) (by decide),
    wsub (y := main_cst_3) (by decide), wsub (y := main_v29) (by decide), wsub (y := main_v30) (by decide), wsub (y := main_v31) (by decide),
    wsub (y := main_v32) (by decide), wsub (y := main_cst_4) (by decide), wsub (y := main_v33) (by decide), wsub (y := main_v34) (by decide),
    wsub (y := main_cst_5) (by decide), wsub (y := main_v35) (by decide), wsub (y := main_v36) (by decide), wsub (y := main_v37) (by decide),
    wsub (y := main_v38) (by decide), wsub (y := main_cst_6) (by decide), wsub (y := main_call1.v0.ref) (by decide), wsub (y := main_call1.v1.ref) (by decide),
    wsub (y := main_call1.v2.ref) (by decide), wsub (y := main_call1.v3.ref) (by decide)⟩
/-- A buffer that stretch does not write keeps its contents. -/
theorem frameS5 (W : Valuation τ sig (Elt F)) {r : Ref sig .tc} (hr : r ∉ writtenS5) :
    after opsS5 W (r : DevRef τ sig) = W (r : DevRef τ sig) := after_of_writes_sub opsS5 W wrS5 hr

/-- Statements %40–%56, the rectifier helper inlined. -/
abbrev opsS6 : List (HloOp τ sig (Elt F)) :=
  [ StableHlo.binary main_v3 main_v39 main_v40 (addf : (⟨S50000x128, .f32⟩ : BufTy).Contents (Elt F) → (⟨S50000x128, .f32⟩ : BufTy).Contents (Elt F) → (⟨S50000x128, .f32⟩ : BufTy).Contents (Elt F)),
    StableHlo.unary main_arg10 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3A83126F#32),
    StableHlo.unary main_cst_7 main_v44 (broadcastInDim S128 ![] bcast_S_S128 : (⟨S_, .f32⟩ : BufTy).Contents (Elt F) → (⟨S128, .f32⟩ : BufTy).Contents (Elt F)),
    StableHlo.binary main_arg11 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v48 main_v49 (mulf : (⟨S50000x128, .f32⟩ : BufTy).Contents (Elt F) → (⟨S50000x128, .f32⟩ : BufTy).Contents (Elt F) → (⟨S50000x128, .f32⟩ : BufTy).Contents (Elt F)),
    StableHlo.unary main_arg8 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v51 main_v52 (mulf : (⟨S50000x128, .f32⟩ : BufTy).Contents (Elt F) → (⟨S50000x128, .f32⟩ : BufTy).Contents (Elt F) → (⟨S50000x128, .f32⟩ : BufTy).Contents (Elt F)),
    StableHlo.unary main_arg9 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (TRef.of main_v55 : TRef sig ⟨S50000x128, .f32⟩) main_call2.v0 main_call2.v1 maximumf ]
/-- The references that stretch writes, in order. -/
abbrev writtenS6 : List (Ref sig .tc) :=
  [main_v40, main_v41, main_v42, main_v43, main_cst_7, main_v44, main_v45, main_v46, main_v47, main_v48, main_v49, main_v50, main_v51, main_v52, main_v53, main_v54, main_v55, main_call2.cst.ref, main_call2.v0.ref, main_call2.v1.ref]
theorem wrS6 : (opsS6 : List (HloOp τ sig (Elt F))).Forall fun op => op.writes ⊆ ((writtenS6).map (Proc.devRef (τ := τ) .tc)).toFinset :=
  ⟨wsub (y := main_v40) (by decide), wsub (y := main_v41) (by decide), wsub (y := main_v42) (by decide), wsub (y := main_v43) (by decide),
    wsub (y := main_cst_7) (by decide), wsub (y := main_v44) (by decide), wsub (y := main_v45) (by decide), wsub (y := main_v46) (by decide),
    wsub (y := main_v47) (by decide), wsub (y := main_v48) (by decide), wsub (y := main_v49) (by decide), wsub (y := main_v50) (by decide),
    wsub (y := main_v51) (by decide), wsub (y := main_v52) (by decide), wsub (y := main_v53) (by decide), wsub (y := main_v54) (by decide),
    wsub (y := main_v55) (by decide), wsub (y := main_call2.cst.ref) (by decide), wsub (y := main_call2.v0.ref) (by decide), wsub (y := main_call2.v1.ref) (by decide)⟩
/-- A buffer that stretch does not write keeps its contents. -/
theorem frameS6 (W : Valuation τ sig (Elt F)) {r : Ref sig .tc} (hr : r ∉ writtenS6) :
    after opsS6 W (r : DevRef τ sig) = W (r : DevRef τ sig) := after_of_writes_sub opsS6 W wrS6 hr

theorem ops_split : (ops : List (HloOp τ sig (Elt F))) = opsS1 ++ (opsS2 ++ (opsS3 ++ (opsS4 ++ (opsS5 ++ opsS6)))) := rfl

theorem outS1 (W : Valuation τ sig (Elt F)) :
    after opsS1 W (main_v3 : DevRef τ sig) = nodeHidden (W (main_arg0 : DevRef τ sig)) (W (main_arg2 : DevRef τ sig)) (W (main_arg3 : DevRef τ sig)) := by
  after_results
  rfl

theorem outS2_gate (W : Valuation τ sig (Elt F)) :
    after opsS2 W (main_v13 : DevRef τ sig) = sigm (edgeLin (W (main_arg1 : DevRef τ sig)) (W (main_arg4 : DevRef τ sig)) (W (main_arg5 : DevRef τ sig))) := by
  after_results
  rfl

theorem outS2_val (W : Valuation τ sig (Elt F)) :
    after opsS2 W (main_v17 : DevRef τ sig) = edgeLin (W (main_arg1 : DevRef τ sig)) (W (main_arg6 : DevRef τ sig)) (W (main_arg7 : DevRef τ sig)) := by
  after_results
  rfl

attribute [local irreducible] Host.reduce Host.gather in
set_option maxRecDepth 8192 in
set_option maxHeartbeats 1000000 in
theorem outS3 (W : Valuation τ sig (Elt F)) :
    after opsS3 W (main_v20 : DevRef τ sig) = takeRows (W (main_v3 : DevRef τ sig)) (W (main_arg12 : DevRef τ sig)) := by
  after_results
  rfl

theorem outS4 (W : Valuation τ sig (Elt F)) :
    after opsS4 W (main_v22 : DevRef τ sig) = mulf (mulf (W (main_v13 : DevRef τ sig)) (W (main_v17 : DevRef τ sig))) (W (main_v20 : DevRef τ sig)) := by
  after_results

attribute [local irreducible] Host.scatterAdd in
set_option maxRecDepth 8192 in
set_option maxHeartbeats 1000000 in
theorem outS5 (W : Valuation τ sig (Elt F)) :
    after opsS5 W (main_v39 : DevRef τ sig) = segMean (W (main_v22 : DevRef τ sig)) (W (main_arg12 : DevRef τ sig)) := by
  after_results
  rfl

set_option maxRecDepth 8192 in
set_option maxHeartbeats 1000000 in
theorem outS6 (W : Valuation τ sig (Elt F)) :
    after opsS6 W (main_v56 : DevRef τ sig) = bnRelu (W (main_v3 : DevRef τ sig)) (W (main_v39 : DevRef τ sig)) (W (main_arg8 : DevRef τ sig)) (W (main_arg9 : DevRef τ sig)) (W (main_arg10 : DevRef τ sig)) (W (main_arg11 : DevRef τ sig)) := by
  after_results
  rfl

end Cert.ReferenceIdeal.RefRun

end
-- ==== Proof.RefRunOut.lean ====
/- The result buffer of the reference's straight line as the composed stages of its thirteen arguments, and the arguments unchanged:
   the six stretches' facts (RefRunPieces) chained from the last stretch back to the launch contents. -/
import proofs.«166731_j47974784696372_1_alg».proof.Proof.RefRunPieces

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-- A buffer none of the six stretches writes keeps its contents through the whole line. -/
theorem frame_all (V : Valuation τ sig (Elt F)) {r : Ref sig .tc} (h1 : r ∉ writtenS1) (h2 : r ∉ writtenS2) (h3 : r ∉ writtenS3)
    (h4 : r ∉ writtenS4) (h5 : r ∉ writtenS5) (h6 : r ∉ writtenS6) :
    after ops V (r : DevRef τ sig) = V (r : DevRef τ sig) := by
  rw [ops_split, after_app, after_app, after_app, after_app, after_app,
    frameS6 _ h6, frameS5 _ h5, frameS4 _ h4, frameS3 _ h3, frameS2 _ h2, frameS1 _ h1]

/-- The result buffer after the whole line is `refOut` of the thirteen arguments' contents: the six stretches' stages composed,
    each intermediate read through the stretches that do not write it. -/
theorem out_eq (V : Valuation τ sig (Elt F)) :
    after ops V (main_v56 : DevRef τ sig)
      = refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig))
          (V (main_arg12 : DevRef τ sig)) := by
  rw [ops_split, after_app, after_app, after_app, after_app, after_app]
  rw [outS6,
    outS5, frameS5 _ (r := main_v3) (by decide), frameS5 _ (r := main_arg8) (by decide), frameS5 _ (r := main_arg9) (by decide), frameS5 _ (r := main_arg10) (by decide), frameS5 _ (r := main_arg11) (by decide),
    outS4, frameS4 _ (r := main_arg12) (by decide), frameS4 _ (r := main_v3) (by decide), frameS4 _ (r := main_arg8) (by decide), frameS4 _ (r := main_arg9) (by decide), frameS4 _ (r := main_arg10) (by decide), frameS4 _ (r := main_arg11) (by decide),
    outS3, frameS3 _ (r := main_v13) (by decide), frameS3 _ (r := main_v17) (by decide), frameS3 _ (r := main_arg12) (by decide), frameS3 _ (r := main_v3) (by decide), frameS3 _ (r := main_arg8) (by decide), frameS3 _ (r := main_arg9) (by decide), frameS3 _ (r := main_arg10) (by decide), frameS3 _ (r := main_arg11) (by decide),
    outS2_gate, outS2_val, frameS2 _ (r := main_v3) (by decide), frameS2 _ (r := main_arg12) (by decide), frameS2 _ (r := main_arg8) (by decide), frameS2 _ (r := main_arg9) (by decide), frameS2 _ (r := main_arg10) (by decide), frameS2 _ (r := main_arg11) (by decide),
    outS1, frameS1 _ (r := main_arg1) (by decide), frameS1 _ (r := main_arg4) (by decide), frameS1 _ (r := main_arg5) (by decide), frameS1 _ (r := main_arg6) (by decide), frameS1 _ (r := main_arg7) (by decide), frameS1 _ (r := main_arg12) (by decide), frameS1 _ (r := main_arg8) (by decide), frameS1 _ (r := main_arg9) (by decide), frameS1 _ (r := main_arg10) (by decide), frameS1 _ (r := main_arg11) (by decide)]
  rfl

theorem arg0_eq (V : Valuation τ sig (Elt F)) :
    after ops V (main_arg0 : DevRef τ sig) = V (main_arg0 : DevRef τ sig) :=
  frame_all V (by decide) (by decide) (by decide) (by decide) (by decide) (by decide)

theorem arg1_eq (V : Valuation τ sig (Elt F)) :
    after ops V (main_arg1 : DevRef τ sig) = V (main_arg1 : DevRef τ sig) :=
  frame_all V (by decide) (by decide) (by decide) (by decide) (by decide) (by decide)

theorem arg2_eq (V : Valuation τ sig (Elt F)) :
    after ops V (main_arg2 : DevRef τ sig) = V (main_arg2 : DevRef τ sig) :=
  frame_all V (by decide) (by decide) (by decide) (by decide) (by decide) (by decide)

theorem arg3_eq (V : Valuation τ sig (Elt F)) :
    after ops V (main_arg3 : DevRef τ sig) = V (main_arg3 : DevRef τ sig) :=
  frame_all V (by decide) (by decide) (by decide) (by decide) (by decide) (by decide)

theorem arg4_eq (V : Valuation τ sig (Elt F)) :
    after ops V (main_arg4 : DevRef τ sig) = V (main_arg4 : DevRef τ sig) :=
  frame_all V (by decide) (by decide) (by decide) (by decide) (by decide) (by decide)

theorem arg5_eq (V : Valuation τ sig (Elt F)) :
    after ops V (main_arg5 : DevRef τ sig) = V (main_arg5 : DevRef τ sig) :=
  frame_all V (by decide) (by decide) (by decide) (by decide) (by decide) (by decide)

theorem arg6_eq (V : Valuation τ sig (Elt F)) :
    after ops V (main_arg6 : DevRef τ sig) = V (main_arg6 : DevRef τ sig) :=
  frame_all V (by decide) (by decide) (by decide) (by decide) (by decide) (by decide)

theorem arg7_eq (V : Valuation τ sig (Elt F)) :
    after ops V (main_arg7 : DevRef τ sig) = V (main_arg7 : DevRef τ sig) :=
  frame_all V (by decide) (by decide) (by decide) (by decide) (by decide) (by decide)

theorem arg8_eq (V : Valuation τ sig (Elt F)) :
    after ops V (main_arg8 : DevRef τ sig) = V (main_arg8 : DevRef τ sig) :=
  frame_all V (by decide) (by decide) (by decide) (by decide) (by decide) (by decide)

theorem arg9_eq (V : Valuation τ sig (Elt F)) :
    after ops V (main_arg9 : DevRef τ sig) = V (main_arg9 : DevRef τ sig) :=
  frame_all V (by decide) (by decide) (by decide) (by decide) (by decide) (by decide)

theorem arg10_eq (V : Valuation τ sig (Elt F)) :
    after ops V (main_arg10 : DevRef τ sig) = V (main_arg10 : DevRef τ sig) :=
  frame_all V (by decide) (by decide) (by decide) (by decide) (by decide) (by decide)

theorem arg11_eq (V : Valuation τ sig (Elt F)) :
    after ops V (main_arg11 : DevRef τ sig) = V (main_arg11 : DevRef τ sig) :=
  frame_all V (by decide) (by decide) (by decide) (by decide) (by decide) (by decide)

theorem arg12_eq (V : Valuation τ sig (Elt F)) :
    after ops V (main_arg12 : DevRef τ sig) = V (main_arg12 : DevRef τ sig) :=
  frame_all V (by decide) (by decide) (by decide) (by decide) (by decide) (by decide)

end Cert.ReferenceIdeal.RefRun

end
-- ==== Proof.RefStages.lean ====
/-
  The reference's dense stages, read at an index, are the specification's functions.

  The host's matrix product of an R × 128 matrix by a 128 × 128 matrix at (p, q) is the sum over the 128 contracted
  positions; a bias vector broadcast first to a one-row matrix and then down the rows contributes its entry q. The
  reference spells the logistic function as 1 / (1 + exp (−z)), which is the logistic function of the extended reals by
  definition, the literal one denoting the number one. The normalisation broadcasts each per-feature vector the same
  way, and its reciprocal square root on the host is the one function of the extended reals.
-/
import proofs.«166731_j47974784696372_1_alg».proof.Proof.RefRun
import proofs.«166731_j47974784696372_1_alg».proof.Proof.Spec
import proofs.«166731_j47974784696372_1_alg».proof.Proof.Gen.ReferenceIdeal
import Idealize.ShloMosaic.Lib.StackMember
import Idealize.ShloMosaic.Lib.KernelVsHost
import Idealize.ShloMosaic.Lib.IdealHost
import Idealize.ShloMosaic.Lib.Pipeline.Value

set_option maxRecDepth 16384

noncomputable section

namespace Cert.ReferenceIdeal.RefStages

open Idealize.ShloMosaic Idealize.ShloMosaic.ValueIdx
open Cert.ReferenceIdeal Cert.ReferenceIdeal.RefRun Cert.Spec
open scoped BigOperators

/-- A vector broadcast to a one-row matrix and then down `m` rows, read at (p, q), is its entry q. -/
theorem rowsOf_apply {α : Type} {m : Nat} (h1 : (⟨1, ![128]⟩ : Shape).BroadcastsInDim ⟨2, ![1, 128]⟩ ![1])
    (h2 : (⟨2, ![1, 128]⟩ : Shape).BroadcastsInDim ⟨2, ![m, 128]⟩ ![0, 1])
    (b : (⟨1, ![128]⟩ : Shape).Idx → α) (p : Fin m) (q : Fin 128) :
    broadcastInDim (⟨2, ![m, 128]⟩ : Shape) ![0, 1] h2 (broadcastInDim (⟨2, ![1, 128]⟩ : Shape) ![1] h1 b) (ix2 p q) = b (ix1 q) := by
  refine (broadcastInDim_oneRow_apply h2 _ p q).trans ?_
  refine broadcastInDim_apply ![1] h1 b (ix2 (0 : Fin 1) q) (ix1 q) ?_
  intro a
  fin_cases a
  show q.val = if (128 : ℕ) = 1 then 0 else q.val
  simp

/-- The node projection of the reference at (p, q). -/
theorem nodeHidden_apply (x : FVec Ideal S50000x128 .f32) (W : FVec Ideal S128x128 .f32) (b : FVec Ideal S128 .f32)
    (p : Fin 50000) (q : Fin 128) :
    nodeHidden (F := Ideal) x W b (ix2 p q) = affine (R := 50000) (C := 128) x W (asRow b) p q := by
  unfold nodeHidden affine
  rw [addf_apply, rowsOf_apply,
    show dot_S50000x128_S128x128_S50000x128_1_0_0_1_n_n = DotDims.plain 50000 128 128 from rfl,
    StackMember.dotGeneral_plain_apply]
  rfl

/-- The edge projections of the reference at (p, q). -/
theorem edgeLin_apply (e : FVec Ideal S800000x128 .f32) (W : FVec Ideal S128x128 .f32) (b : FVec Ideal S128 .f32)
    (p : Fin 800000) (q : Fin 128) :
    edgeLin (F := Ideal) e W b (ix2 p q) = affine (R := 800000) (C := 128) e W (asRow b) p q := by
  unfold edgeLin affine
  rw [addf_apply, rowsOf_apply,
    show dot_S800000x128_S128x128_S800000x128_1_0_0_1_n_n = DotDims.plain 800000 128 128 from rfl,
    StackMember.dotGeneral_plain_apply]
  rfl

/-- The reference's spelling of the logistic function, entry by entry. -/
theorem sigm_apply (z : FVec Ideal S800000x128 .f32) (i : S800000x128.Idx) :
    sigm (F := Ideal) z i = Ideal.logistic (z i) := by
  show Ideal.div (Ideal.ofBits .f32 0x3F800000#32) (Ideal.ofBits .f32 0x3F800000#32 + Ideal.exp (-(z i))) = _
  rw [Ideal.ofBits_one_f32]
  rfl

/-- The reference's normalisation and clamp is the specification's, the four vectors laid out as rows. -/
theorem bnRelu_eq (h agg : FVec Ideal S50000x128 .f32) (gamma beta mean var : FVec Ideal S128 .f32) :
    bnRelu (F := Ideal) h agg gamma beta mean var
      = normRelu (R := 50000) h agg (asRow gamma) (asRow beta) (asRow mean) (asRow var) := by
  funext i
  obtain ⟨p, q, rfl⟩ : ∃ (p : Fin 50000) (q : Fin 128), i = ix2 p q := ⟨i 0, i 1, eq_ix2 i⟩
  unfold bnRelu normRelu
  rw [maximumf_apply, addf_apply, mulf_apply, mulf_apply, subf_apply, addf_apply,
    rowsOf_apply, rowsOf_apply, rowsOf_apply, rowsOf_apply]
  rfl

end Cert.ReferenceIdeal.RefStages

end
-- ==== Proof.SharedHost.lean ====
/-
  The kernel program and the reference apply the same host operations for the gather of the source rows and for the
  mean at the destinations. Each side spells them with its own shape abbreviations, dimension records and side
  conditions; the abbreviations name the same literal shapes, the records have the same fields, and the side conditions
  are propositions, so the two spellings are one function.
-/
import proofs.«166731_j47974784696372_1_alg».proof.Proof.KHost
import proofs.«166731_j47974784696372_1_alg».proof.Proof.RefRun
import proofs.«166731_j47974784696372_1_alg».proof.Proof.Gen.KernelIdeal
import proofs.«166731_j47974784696372_1_alg».proof.Proof.Gen.ReferenceIdeal

noncomputable section

namespace Cert.Proof.SharedHost

open Idealize.ShloMosaic

variable {F : FTy → Type} [FloatOps F]

/-! ## The dimension records of the two sides are the same records -/

/-- The gather's dimension numbers. -/
theorem gatherDims_eq :
    Cert.KernelIdeal.gather_S50000x128_S800000x1_S800000x128_1_0_n_n_0_1_1128
      = Cert.ReferenceIdeal.gather_S50000x128_S800000x1_S800000x128_1_0_n_n_0_1_1128 := rfl

/-- The row scatter's dimension numbers. -/
theorem scatterRowsDims_eq :
    Cert.KernelIdeal.scatter_S50000x128_S800000x1_S800000x128_1_0_0_1
      = Cert.ReferenceIdeal.scatter_S50000x128_S800000x1_S800000x128_1_0_0_1 := rfl

/-- The count scatter's dimension numbers. -/
theorem scatterCountDims_eq :
    Cert.KernelIdeal.scatter_S50000_S800000x1_S800000_n_0_0_1
      = Cert.ReferenceIdeal.scatter_S50000_S800000x1_S800000_n_0_0_1 := rfl

/-! ## The two spellings of each stretch are one function

The array operations stay closed: the two sides are compared operation by operation, never entry by entry. -/

attribute [local irreducible] Idealize.ShloMosaic.select Idealize.ShloMosaic.cmpi Idealize.ShloMosaic.cmpf
  Idealize.ShloMosaic.addi Idealize.ShloMosaic.andi Idealize.ShloMosaic.broadcastInDim Idealize.ShloMosaic.shapeCast
  Idealize.ShloMosaic.extractStridedSlice Idealize.ShloMosaic.constantI Idealize.ShloMosaic.constant
  Idealize.ShloMosaic.maximumf Idealize.ShloMosaic.Host.divf Idealize.ShloMosaic.Host.gather
  Idealize.ShloMosaic.Host.reduce Idealize.ShloMosaic.Host.scatterAdd

set_option maxHeartbeats 400000 in
/-- The gather of the source rows. -/
theorem takeSrc_eq (h : (⟨Cert.KernelIdeal.S50000x128, .f32⟩ : BufTy).Contents (Elt F))
    (idx : (⟨Cert.KernelIdeal.S800000x2, .i32⟩ : BufTy).Contents (Elt F)) :
    Cert.KernelIdeal.KHost.takeSrc (F := F) h idx = Cert.ReferenceIdeal.RefRun.takeRows (F := F) h idx := by
  unfold Cert.KernelIdeal.KHost.takeSrc Cert.ReferenceIdeal.RefRun.takeRows Cert.ReferenceIdeal.RefRun.inRange
    Cert.ReferenceIdeal.RefRun.wrapIdx Cert.ReferenceIdeal.RefRun.srcIdx
  rfl

set_option maxHeartbeats 400000 in
/-- The mean at the destinations. -/
theorem meanAtDst_eq (msg : (⟨Cert.KernelIdeal.S800000x128, .f32⟩ : BufTy).Contents (Elt F))
    (idx : (⟨Cert.KernelIdeal.S800000x2, .i32⟩ : BufTy).Contents (Elt F)) :
    Cert.KernelIdeal.KHost.meanAtDst (F := F) msg idx = Cert.ReferenceIdeal.RefRun.segMean (F := F) msg idx := by
  unfold Cert.KernelIdeal.KHost.meanAtDst Cert.ReferenceIdeal.RefRun.segMean Cert.ReferenceIdeal.RefRun.segSum
    Cert.ReferenceIdeal.RefRun.segCount Cert.ReferenceIdeal.RefRun.dstIdx
  rfl

end Cert.Proof.SharedHost

end
-- ==== Proof.KLayout.lean ====
/-
  Layout facts of the host-prepared operands of the regions, read at an index.

  A vector laid out as a one-row matrix has the vector's entries along its row; two matrices put side by side have the
  first in the left 128 columns and the second in the right 128 columns; two vectors put end to end and laid out as a
  row have the first in the left 128 entries and the second in the right 128.
-/
import proofs.«166731_j47974784696372_1_alg».proof.Proof.KHost
import proofs.«166731_j47974784696372_1_alg».proof.Proof.Spec
import Idealize.ShloMosaic.Lib.Pipeline.Value

set_option maxRecDepth 16384

noncomputable section

namespace Cert.KernelIdeal.KHost

open Idealize.ShloMosaic Idealize.ShloMosaic.ValueIdx
open Cert.KernelIdeal Cert.KernelIdeal.Gen Cert.Spec

variable {F : FTy → Type} [FloatOps F]

/-- Entry `q` of the row is entry `q` of the vector. -/
theorem row128_apply (b : (⟨S128, .f32⟩ : BufTy).Contents (Elt F)) (q : Fin 128) :
    row128 b (ix2 (0 : Fin 1) q) = b (ix1 q) := by
  unfold row128
  exact shapeCast_apply b shapeCasts_S128_S1x128 (ix2 (0 : Fin 1) q) (ix1 q) (by
    rw [Shape.rowMajor_val_two, Shape.rowMajor_val_one]; show q.val = 0 * 128 + q.val; omega)

/-- The left 128 columns are the first matrix. -/
theorem sideBySide_lo (a b : (⟨S128x128, .f32⟩ : BufTy).Contents (Elt F)) (k q : Fin 128) :
    sideBySide a b (ix2 k (lo q)) = a (ix2 k q) := by
  unfold sideBySide
  exact concatenate_pair_apply_left (t := S128x256) (s₁ := S128x128) (s₂ := S128x128) 1 a b
    concatenates_S128x128_S128x128_S128x256_d1 (ix2 k (lo q)) rfl (ix2 k q) (by
      intro d
      match d with
      | ⟨0, _⟩ => rfl
      | ⟨1, _⟩ => rfl)

/-- The right 128 columns are the second matrix. -/
theorem sideBySide_hi (a b : (⟨S128x128, .f32⟩ : BufTy).Contents (Elt F)) (k q : Fin 128) :
    sideBySide a b (ix2 k (hi q)) = b (ix2 k q) := by
  unfold sideBySide
  exact concatenate_pair_apply_right (t := S128x256) (s₁ := S128x128) (s₂ := S128x128) 1 a b
    concatenates_S128x128_S128x128_S128x256_d1 (ix2 k (hi q)) rfl rfl (ix2 k q) (by
      intro d hd
      match d with
      | ⟨0, _⟩ => rfl
      | ⟨1, _⟩ => exact absurd rfl hd) (by
      show q.val + 128 = q.val + 128; rfl)

/-- The left 128 entries of the joined row are the first vector. -/
theorem row256_lo (a b : (⟨S128, .f32⟩ : BufTy).Contents (Elt F)) (q : Fin 128) :
    row256 a b (ix2 (0 : Fin 1) (lo q)) = a (ix1 q) := by
  unfold row256
  refine (shapeCast_apply _ shapeCasts_S256_S1x256 (ix2 (0 : Fin 1) (lo q)) (ix1 (lo q)) (by
    rw [Shape.rowMajor_val_two, Shape.rowMajor_val_one]; show q.val = 0 * 256 + q.val; omega)).trans ?_
  exact concatenate_pair_apply_left (t := S256) (s₁ := S128) (s₂ := S128) 0 a b
    concatenates_S128_S128_S256_d0 (ix1 (lo q)) rfl (ix1 q) (by
      intro d
      match d with
      | ⟨0, _⟩ => rfl)

/-- The right 128 entries of the joined row are the second vector. -/
theorem row256_hi (a b : (⟨S128, .f32⟩ : BufTy).Contents (Elt F)) (q : Fin 128) :
    row256 a b (ix2 (0 : Fin 1) (hi q)) = b (ix1 q) := by
  unfold row256
  refine (shapeCast_apply _ shapeCasts_S256_S1x256 (ix2 (0 : Fin 1) (hi q)) (ix1 (hi q)) (by
    rw [Shape.rowMajor_val_two, Shape.rowMajor_val_one]; show q.val + 128 = 0 * 256 + (q.val + 128); omega)).trans ?_
  exact concatenate_pair_apply_right (t := S256) (s₁ := S128) (s₂ := S128) 0 a b
    concatenates_S128_S128_S256_d0 (ix1 (hi q)) rfl rfl (ix1 q) (by
      intro d hd
      match d with
      | ⟨0, _⟩ => exact absurd rfl hd) (by
      show q.val + 128 = q.val + 128; rfl)

end Cert.KernelIdeal.KHost

end
-- ==== Proof.Bridge.lean ====
/-
  The bridge, index by index, between the operands the host operations prepare for the regions and the reference's
  dense stages.

  * a vector of 128 entries laid out as a 1 × 128 row is the row whose entry `q` is the vector's entry `q`;
  * the node projection of the specification, at the bias laid out as a row, is the reference's node stage;
  * with the two weight matrices side by side and the two bias vectors end to end, the affine image at column `q` of
    the left half is the gate's affine image at `q`, and at column `q` of the right half the filter's; so the
    specification's gated message is the reference's logistic of the gate's stage times the filter's stage times the
    neighbour rows.
-/
import proofs.«166731_j47974784696372_1_alg».proof.Proof.KLayout
import proofs.«166731_j47974784696372_1_alg».proof.Proof.RefStages
import proofs.«166731_j47974784696372_1_alg».proof.Proof.Spec
import proofs.«166731_j47974784696372_1_alg».proof.Proof.RefRun
import proofs.«166731_j47974784696372_1_alg».proof.Proof.KHost
import proofs.«166731_j47974784696372_1_alg».proof.Proof.Gen.KernelIdeal
import proofs.«166731_j47974784696372_1_alg».proof.Proof.Gen.ReferenceIdeal
import Idealize.ShloMosaic.Lib.ValueIdx

noncomputable section

namespace Cert.Proof.Bridge

open Idealize.ShloMosaic Idealize.ShloMosaic.ValueIdx
open scoped BigOperators

/-- (1) The bias laid out as a row by the host is the specification's row of the vector. -/
theorem row128_asRow (b : (⟨Cert.KernelIdeal.S128, .f32⟩ : BufTy).Contents (Elt Ideal)) :
    Cert.KernelIdeal.KHost.row128 (F := Ideal) b = Cert.Spec.asRow b := by
  funext i
  obtain ⟨z, q, rfl⟩ : ∃ (z : Fin 1) (q : Fin 128), i = ix2 z q := ⟨i 0, i 1, eq_ix2 i⟩
  obtain rfl : z = 0 := Subsingleton.elim _ _
  exact Cert.KernelIdeal.KHost.row128_apply b q

/-- (2) The specification's node projection, at the bias laid out as a row, is the reference's node stage. -/
theorem hidden_eq (x : FVec Ideal Cert.ReferenceIdeal.S50000x128 .f32) (W : FVec Ideal Cert.ReferenceIdeal.S128x128 .f32)
    (b : FVec Ideal Cert.ReferenceIdeal.S128 .f32) :
    Cert.Spec.nodeProj (R := 50000) x W (Cert.Spec.asRow b) = Cert.ReferenceIdeal.RefRun.nodeHidden (F := Ideal) x W b := by
  funext i
  obtain ⟨p, q, rfl⟩ : ∃ (p : Fin 50000) (q : Fin 128), i = ix2 p q := ⟨i 0, i 1, eq_ix2 i⟩
  exact (Cert.ReferenceIdeal.RefStages.nodeHidden_apply x W b p q).symm

/-- The affine image against the two matrices side by side and the two bias vectors end to end, at column `q` of the
    left half, is the first pair's affine image at `q`. -/
theorem affine_left {R : Nat} (e : Cert.Spec.Arr2 R 128) (Wg Wf : Cert.Spec.Arr2 128 128) (bg bf : Cert.Spec.Arr1 128)
    (p : Fin R) (q : Fin 128) :
    Cert.Spec.affine e (Cert.KernelIdeal.KHost.sideBySide (F := Ideal) Wg Wf) (Cert.KernelIdeal.KHost.row256 (F := Ideal) bg bf) p (Cert.Spec.lo q)
      = Cert.Spec.affine e Wg (Cert.Spec.asRow bg) p q := by
  unfold Cert.Spec.affine
  rw [Cert.KernelIdeal.KHost.row256_lo]
  refine congrArg₂ (· + ·) (Finset.sum_congr rfl fun k _ => ?_) rfl
  rw [Cert.KernelIdeal.KHost.sideBySide_lo]

/-- At column `q` of the right half it is the second pair's affine image at `q`. -/
theorem affine_right {R : Nat} (e : Cert.Spec.Arr2 R 128) (Wg Wf : Cert.Spec.Arr2 128 128) (bg bf : Cert.Spec.Arr1 128)
    (p : Fin R) (q : Fin 128) :
    Cert.Spec.affine e (Cert.KernelIdeal.KHost.sideBySide (F := Ideal) Wg Wf) (Cert.KernelIdeal.KHost.row256 (F := Ideal) bg bf) p (Cert.Spec.hi q)
      = Cert.Spec.affine e Wf (Cert.Spec.asRow bf) p q := by
  unfold Cert.Spec.affine
  rw [Cert.KernelIdeal.KHost.row256_hi]
  refine congrArg₂ (· + ·) (Finset.sum_congr rfl fun k _ => ?_) rfl
  rw [Cert.KernelIdeal.KHost.sideBySide_hi]

/-- (3) The specification's gated message, at the host-prepared matrix and row, is the reference's: the logistic of
    the gate's stage times the filter's stage times the neighbour rows. -/
theorem gated_eq (e nb : FVec Ideal Cert.ReferenceIdeal.S800000x128 .f32) (Wg Wf : FVec Ideal Cert.ReferenceIdeal.S128x128 .f32)
    (bg bf : FVec Ideal Cert.ReferenceIdeal.S128 .f32) :
    Cert.Spec.gatedMsg (R := 800000) e nb (Cert.KernelIdeal.KHost.sideBySide (F := Ideal) Wg Wf) (Cert.KernelIdeal.KHost.row256 (F := Ideal) bg bf)
      = mulf (mulf (Cert.ReferenceIdeal.RefRun.sigm (F := Ideal) (Cert.ReferenceIdeal.RefRun.edgeLin (F := Ideal) e Wg bg))
          (Cert.ReferenceIdeal.RefRun.edgeLin (F := Ideal) e Wf bf)) nb := by
  funext i
  obtain ⟨p, q, rfl⟩ : ∃ (p : Fin 800000) (q : Fin 128), i = ix2 p q := ⟨i 0, i 1, eq_ix2 i⟩
  show Ideal.logistic (Cert.Spec.affine e (Cert.KernelIdeal.KHost.sideBySide (F := Ideal) Wg Wf) (Cert.KernelIdeal.KHost.row256 (F := Ideal) bg bf) p (Cert.Spec.lo q))
        * Cert.Spec.affine e (Cert.KernelIdeal.KHost.sideBySide (F := Ideal) Wg Wf) (Cert.KernelIdeal.KHost.row256 (F := Ideal) bg bf) p (Cert.Spec.hi q)
        * nb (ix2 p q)
      = Cert.ReferenceIdeal.RefRun.sigm (F := Ideal) (Cert.ReferenceIdeal.RefRun.edgeLin (F := Ideal) e Wg bg) (ix2 p q)
        * Cert.ReferenceIdeal.RefRun.edgeLin (F := Ideal) e Wf bf (ix2 p q) * nb (ix2 p q)
  rw [affine_left, affine_right, Cert.ReferenceIdeal.RefStages.sigm_apply,
    Cert.ReferenceIdeal.RefStages.edgeLin_apply, Cert.ReferenceIdeal.RefStages.edgeLin_apply]

end Cert.Proof.Bridge

end
-- ==== Proof.Final.lean ====
/-
  The two idealized programs compute one function.

  The kernel program's result is the layer of its arguments (the fold through its three regions and the host stretches
  between them); the reference's result is its own composition of the same stages. Stage by stage the two agree on the
  extended reals: the blockwise matrix product into a zero accumulator is the host's product; the product with the two
  weight matrices side by side, cut into its left and right halves, is the two separate products; the logistic function
  is the reference's 1 / (1 + exp (−z)); the gather at the source nodes and the mean at the destination nodes are the
  same host operations on both sides, applied to equal operands; and the normalisation with the per-feature vectors laid
  out as rows is the reference's broadcast of them. No step moves a factor across a sum or cancels anything, so the
  equality holds for every extended real, and the finiteness of the inputs is never used.
-/
import proofs.«166731_j47974784696372_1_alg».proof.Defs
import proofs.«166731_j47974784696372_1_alg».proof.Proof.Gen.Kernel.Frame
import proofs.«166731_j47974784696372_1_alg».proof.Proof.Gen.KernelIdeal.Frame
import proofs.«166731_j47974784696372_1_alg».proof.Proof.Gen.ReferenceIdeal
import proofs.«166731_j47974784696372_1_alg».proof.Proof.Gen.Pre_finite_inputs
import proofs.«166731_j47974784696372_1_alg».proof.Proof.KRun
import proofs.«166731_j47974784696372_1_alg».proof.Proof.KValue
import proofs.«166731_j47974784696372_1_alg».proof.Proof.Region0Value
import proofs.«166731_j47974784696372_1_alg».proof.Proof.Region1Value
import proofs.«166731_j47974784696372_1_alg».proof.Proof.Region2Value
import proofs.«166731_j47974784696372_1_alg».proof.Proof.RefRun
import proofs.«166731_j47974784696372_1_alg».proof.Proof.RefRunOut
import proofs.«166731_j47974784696372_1_alg».proof.Proof.RefStages
import proofs.«166731_j47974784696372_1_alg».proof.Proof.SharedHost
import proofs.«166731_j47974784696372_1_alg».proof.Proof.Bridge

set_option maxRecDepth 16384

noncomputable section

namespace Cert.Proof.Final

open Idealize.ShloMosaic Idealize.ShloMosaic.TcCoe Idealize.SL.Sem

/-- Each region's output array is the specification's function of the arrays the region finds. -/
theorem regionFacts : Cert.KernelIdeal.KValue.RegionFacts :=
  ⟨fun V c => Cert.KernelIdeal.RegionValue.final0 V c, fun V c => Cert.KernelIdeal.RegionValue.final1 V c,
    fun V c => Cert.KernelIdeal.RegionValue.final2 V c⟩

attribute [local irreducible] Cert.Spec.normRelu Cert.Spec.gatedMsg Cert.Spec.nodeProj Cert.Spec.asRow
  Cert.KernelIdeal.KHost.takeSrc Cert.KernelIdeal.KHost.meanAtDst Cert.KernelIdeal.KHost.row128
  Cert.KernelIdeal.KHost.sideBySide Cert.KernelIdeal.KHost.row256
  Cert.ReferenceIdeal.RefRun.nodeHidden Cert.ReferenceIdeal.RefRun.edgeLin Cert.ReferenceIdeal.RefRun.sigm
  Cert.ReferenceIdeal.RefRun.takeRows Cert.ReferenceIdeal.RefRun.segMean Cert.ReferenceIdeal.RefRun.bnRelu

/-- The kernel program's layer is the reference's composition of its stages, for all arguments. -/
theorem layer_eq_refOut
    (a0 : FVec Ideal Cert.ReferenceIdeal.S50000x128 .f32) (a1 : FVec Ideal Cert.ReferenceIdeal.S800000x128 .f32)
    (a2 : FVec Ideal Cert.ReferenceIdeal.S128x128 .f32) (a3 : FVec Ideal Cert.ReferenceIdeal.S128 .f32)
    (a4 : FVec Ideal Cert.ReferenceIdeal.S128x128 .f32) (a5 : FVec Ideal Cert.ReferenceIdeal.S128 .f32)
    (a6 : FVec Ideal Cert.ReferenceIdeal.S128x128 .f32) (a7 : FVec Ideal Cert.ReferenceIdeal.S128 .f32)
    (a8 a9 a10 a11 : FVec Ideal Cert.ReferenceIdeal.S128 .f32) (a12 : IVec Cert.ReferenceIdeal.S800000x2 32) :
    Cert.KernelIdeal.KValue.layer a0 a1 a2 a3 a4 a5 a6 a7 a8 a9 a10 a11 a12
      = Cert.ReferenceIdeal.RefRun.refOut (F := Ideal) a0 a1 a2 a3 a4 a5 a6 a7 a8 a9 a10 a11 a12 := by
  unfold Cert.KernelIdeal.KValue.layer Cert.KernelIdeal.KValue.hidden Cert.ReferenceIdeal.RefRun.refOut
  rw [Cert.Proof.Bridge.row128_asRow a3, Cert.Proof.Bridge.row128_asRow a8, Cert.Proof.Bridge.row128_asRow a9,
    Cert.Proof.Bridge.row128_asRow a10, Cert.Proof.Bridge.row128_asRow a11,
    Cert.Proof.Bridge.hidden_eq a0 a2 a3, Cert.Proof.SharedHost.takeSrc_eq, Cert.Proof.Bridge.gated_eq,
    Cert.Proof.SharedHost.meanAtDst_eq, ← Cert.ReferenceIdeal.RefStages.bnRelu_eq]

end Cert.Proof.Final

/-! ## The claims -/

namespace Cert.Proof.Claims

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run read at each argument, which no operation writes. -/
theorem frame_ri : Cert.frame_ReferenceIdeal := by
  intro m ρ _
  exact (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _)⟩)
    (Cert.ReferenceIdeal.RefRun.run_main (F := Ideal) m ρ)

/-- The idealization rewrote nothing, so there is nothing to preserve. -/
theorem preserves : Cert.preserves_Kernel_KernelIdeal := trivial

/-- From memories agreeing on the arguments both idealized programs end with the layer of the arguments in their result
    buffers: the kernel program by the fold through its regions, the reference by its run read at the result, its
    arguments' contents being the kernel program's. -/
theorem algebraic : Cert.algebraic_KernelIdeal_ReferenceIdeal := by
  intro m ρ m' ρ' _ hagree
  refine ⟨fun c => Cert.KernelIdeal.KValue.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    ?_, ?_⟩
  · exact (θ_run Cert.KernelIdeal.defs _ _).mono
      (fun _ h c => ⟨(h c).1.trans (Cert.KernelIdeal.KValue.result_eq m ρ c Cert.Proof.Final.regionFacts), (h c).2⟩)
      (Cert.KernelIdeal.KRun.run_value (F := Ideal) m ρ)
  · refine (θ_run Cert.ReferenceIdeal.defs _ _).mono
      (fun _ h c => ⟨((h c Cert.ReferenceIdeal.main_v56).trans (Cert.ReferenceIdeal.RefRun.out_eq _)).trans ?_,
        (h c Cert.ReferenceIdeal.main_arg0).trans (Cert.ReferenceIdeal.RefRun.arg0_eq _),
        (h c Cert.ReferenceIdeal.main_arg1).trans (Cert.ReferenceIdeal.RefRun.arg1_eq _),
        (h c Cert.ReferenceIdeal.main_arg2).trans (Cert.ReferenceIdeal.RefRun.arg2_eq _),
        (h c Cert.ReferenceIdeal.main_arg3).trans (Cert.ReferenceIdeal.RefRun.arg3_eq _),
        (h c Cert.ReferenceIdeal.main_arg4).trans (Cert.ReferenceIdeal.RefRun.arg4_eq _),
        (h c Cert.ReferenceIdeal.main_arg5).trans (Cert.ReferenceIdeal.RefRun.arg5_eq _),
        (h c Cert.ReferenceIdeal.main_arg6).trans (Cert.ReferenceIdeal.RefRun.arg6_eq _),
        (h c Cert.ReferenceIdeal.main_arg7).trans (Cert.ReferenceIdeal.RefRun.arg7_eq _),
        (h c Cert.ReferenceIdeal.main_arg8).trans (Cert.ReferenceIdeal.RefRun.arg8_eq _),
        (h c Cert.ReferenceIdeal.main_arg9).trans (Cert.ReferenceIdeal.RefRun.arg9_eq _),
        (h c Cert.ReferenceIdeal.main_arg10).trans (Cert.ReferenceIdeal.RefRun.arg10_eq _),
        (h c Cert.ReferenceIdeal.main_arg11).trans (Cert.ReferenceIdeal.RefRun.arg11_eq _),
        (h c Cert.ReferenceIdeal.main_arg12).trans (Cert.ReferenceIdeal.RefRun.arg12_eq _)⟩)
      (Cert.ReferenceIdeal.RefRun.run_main (F := Ideal) m' ρ')
    show Cert.ReferenceIdeal.RefRun.refOut (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.Proof.Final.layer_eq_refOut _ _ _ _ _ _ _ _ _ _ _ _ _).symm

end Cert.Proof.Claims

end
-- ==== Proof.lean ====
/-
  A gated graph convolution layer — node projection, gather at the source nodes, gated messages, mean at the
  destination nodes, normalisation and clamp — computed by three pipelined kernels among host operations, against the
  same layer written with whole-array operations. On the extended reals both compute one function of the thirteen
  arguments: every difference between the two is a change of tiling, of the order in which an affine map's columns are
  produced, or of the spelling of the logistic function, none of which needs the inputs to be finite.
-/
import proofs.«166731_j47974784696372_1_alg».proof.Defs
import proofs.«166731_j47974784696372_1_alg».proof.Proof.Gen.Kernel
import proofs.«166731_j47974784696372_1_alg».proof.Proof.Gen.Kernel.Frame
import proofs.«166731_j47974784696372_1_alg».proof.Proof.Gen.KernelIdeal
import proofs.«166731_j47974784696372_1_alg».proof.Proof.Gen.KernelIdeal.Frame
import proofs.«166731_j47974784696372_1_alg».proof.Proof.Gen.ReferenceIdeal
import proofs.«166731_j47974784696372_1_alg».proof.Proof.Gen.Pre_finite_inputs
import proofs.«166731_j47974784696372_1_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
